-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x16384 : Shape := ⟨2, ![16384, 16384]⟩
abbrev S256x256 : Shape := ⟨2, ![256, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S16384x256 .f32) (main_arg1 : FVec F S16384x16384 .f32) (main_arg2 : FVec F S256x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S16384x256 : Shape := ⟨2, ![16384, 256]⟩
abbrev S16384x16384 : Shape := ⟨2, ![16384, 16384]⟩
abbrev S256x256 : Shape := ⟨2, ![256, 256]⟩
abbrev S16384x1 : Shape := ⟨2, ![16384, 1]⟩
abbrev S256x16384 : Shape := ⟨2, ![256, 16384]⟩
abbrev S256x1 : Shape := ⟨2, ![256, 1]⟩
abbrev S256 : Shape := ⟨1, ![256]⟩
abbrev S1024x1024 : Shape := ⟨2, ![1024, 1024]⟩
abbrev S1024x1 : Shape := ⟨2, ![1024, 1]⟩
abbrev S1024x256 : Shape := ⟨2, ![1024, 256]⟩
abbrev S1024 : Shape := ⟨1, ![1024]⟩

abbrev nBuf : Space → Nat
  | .hbm => 5
  | .vmem => 15
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x256, .f32⟩
  | .hbm, ⟨3, _⟩ => ⟨S16384x1, .f32⟩
  | .hbm, ⟨4, _⟩ => ⟨S16384x256, .f32⟩
  | .local _ .vmem, ⟨0, _⟩ => ⟨S256x16384, .f32⟩
  | .local _ .vmem, ⟨1, _⟩ => ⟨S256x16384, .f32⟩
  | .local _ .vmem, ⟨2, _⟩ => ⟨S256x1, .f32⟩
  | .local _ .vmem, ⟨3, _⟩ => ⟨S256x1, .f32⟩
  | .local _ .vmem, ⟨4, _⟩ => ⟨S1024x1024, .f32⟩
  | .local _ .vmem, ⟨5, _⟩ => ⟨S1024x1024, .f32⟩
  | .local _ .vmem, ⟨6, _⟩ => ⟨S16384x256, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S256x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 16], ![false, false]⟩

def k1_mult1 (i : grid1.Coords) : BitVec 32 :=
  let arg0 : BitVec 32 := BitVec.ofNat 32 (i 0).val
  let c1024_i32 : BitVec 32 := 1024#32
  let v0 : BitVec 32 := Scalar.muli arg0 c1024_i32
  v0
def k1_mult2 (i : grid1.Coords) : BitVec 32 :=
  let arg1 : BitVec 32 := BitVec.ofNat 32 (i 1).val
  let c1024_i32_0 : BitVec 32 := 1024#32
  let v2 : BitVec 32 := Scalar.muli arg1 c1024_i32_0
  v2
def k1_cond1 (i : grid1.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_1 : BitVec 32 := 0#32
  let v6 : BitVec 1 := Scalar.cmpi .ne v5 c0_i32_1
  v6

def k1_off1 (i : grid1.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v25 : Index := Scalar.indexCast v1
  let c0_11 : Index := 0#32
  ![v25.toNat, 0]
def k1_off2 (i : grid1.Coords) : Fin 2 → Nat :=
  let arg1 : BitVec 32 := BitVec.ofNat 32 (i 1).val
  let c1024_i32_0 : BitVec 32 := 1024#32
  let v2 : BitVec 32 := Scalar.muli arg1 c1024_i32_0
  let v3 : BitVec 32 := v2
  let v7 : Index := Scalar.indexCast v3
  let c0 : Index := 0#32
  ![v7.toNat, 0]
def k1_cond2 (i : grid1.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_10 : BitVec 32 := 0#32
  let v24 : BitVec 1 := Scalar.cmpi .ne v23 c0_i32_10
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S256x16384_S256x16384_0_0 : ∀ a, (![0, 0] : Fin 2 → Nat) a + S256x16384.size a ≤ S256x16384.size a
  h_S256x16384 : 0 < S256x16384.numel
  reduces_S256x16384_S256 : S256x16384.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  h_S1024x256 : 0 < S1024x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S1024x256_S1024x256_0_0 : ∀ a, (![0, 0] : Fin 2 → Nat) a + S1024x256.size a ≤ S1024x256.size a
  shapeCasts_S1024x256_S1024x256 : S1024x256.ShapeCasts S1024x256
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S256x256_S256x256_0_0 : ∀ a, (![0, 0] : Fin 2 → Nat) a + S256x256.size a ≤ S256x256.size a
  h_S256x256 : 0 < S256x256.numel
  reduces_S1024x256_S1024 : S1024x256.Reduces [1] S1024
  shapeCasts_S1024_S1024x1 : S1024.ShapeCasts S1024x1
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S16384x16384.size a
  hwx0_0 : ∀ i : grid0.Coords, EltTy.bits .f32 = 32 ∨ (Rect.block (s := S16384x16384) S256x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .f32 = 32 ∨ (Rect.block (s := S16384x1) S256x1.size (cc0_transform_1 i) (hinb0_1 i)).WholeWords (EltTy.packing .f32)
  hrank1 : 0 < grid1.rank
  k1_mult1_dvd : ∀ i : grid1.Coords, 1024 ∣ (k1_mult1 i).toNat
  k1_mult2_dvd : ∀ i : grid1.Coords, 1024 ∣ (k1_mult2 i).toNat
  k1_off1_inb : ∀ i : grid1.Coords, ∀ (k1_h1 : k1_cond1 i = 1#1), ∀ a, (k1_off1 i) a + S1024x256.size a ≤ S16384x256.size a
  k1_off2_inb : ∀ i : grid1.Coords, ∀ a, (k1_off2 i) a + S1024x256.size a ≤ S16384x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x16384.size a
  hwx1_0 : ∀ i : grid1.Coords, EltTy.bits .f32 = 32 ∨ (Rect.block (s := S16384x16384) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x256.size a ≤ S16384x256.size a
  hwx1_1 : ∀ i : grid1.Coords, EltTy.bits .f32 = 32 ∨ (Rect.block (s := S16384x256) S16384x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .f32 = 32 ∨ (Rect.block (s := S16384x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S16384x1.size a
  hwx1_3 : ∀ i : grid1.Coords, EltTy.bits .f32 = 32 ∨ (Rect.block (s := S16384x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S16384x256.size a
  hwx1_5 : ∀ i : grid1.Coords, EltTy.bits .f32 = 32 ∨ (Rect.block (s := S16384x256) S1024x256.size (cc1_transform_5 i) (hinb1_5 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg1) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S16384x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16384x256 : Shape := ⟨2, ![16384, 256]⟩
abbrev S16384x16384 : Shape := ⟨2, ![16384, 16384]⟩
abbrev S256x256 : Shape := ⟨2, ![256, 256]⟩
abbrev S_ : Shape := ⟨0, ![]⟩
abbrev S16384 : Shape := ⟨1, ![16384]⟩
abbrev S16384x1 : Shape := ⟨2, ![16384, 1]⟩
abbrev S1x16384 : Shape := ⟨2, ![1, 16384]⟩

abbrev nBuf : Space → Nat
  | .hbm => 38
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x256, .f32⟩
  | .hbm, ⟨3, _⟩ => ⟨S16384x16384, .i32⟩
  | .hbm, ⟨4, _⟩ => ⟨S16384x16384, .i32⟩
  | .hbm, ⟨5, _⟩ => ⟨S_, .i32⟩
  | .hbm, ⟨6, _⟩ => ⟨S16384x16384, .i32⟩
  | .hbm, ⟨7, _⟩ => ⟨S16384x16384, .i32⟩
  | .hbm, ⟨8, _⟩ => ⟨S16384x16384, .i1⟩
  | .hbm, ⟨9, _⟩ => ⟨S16384x16384, .f32⟩
  | .hbm, ⟨10, _⟩ => ⟨S16384x16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S16384x1, .f32⟩
  | .hbm, ⟨18, _⟩ => ⟨S16384x16384, .f32⟩
  | .hbm, ⟨19, _⟩ => ⟨S16384x16384, .f32⟩
  | .hbm, ⟨20, _⟩ => ⟨S1x16384, .f32⟩
  | .hbm, ⟨21, _⟩ => ⟨S16384x16384, .f32⟩
  | .hbm, ⟨22, _⟩ => ⟨S16384x16384, .f32⟩
  | .hbm, ⟨23, _⟩ => ⟨S16384x256, .f32⟩
  | .hbm, ⟨24, _⟩ => ⟨S16384x256, .f32⟩
  | .hbm, ⟨25, _⟩ => ⟨S_, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x256, .f32⟩
  | .hbm, ⟨37, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_cst : Ref sig .tc := ⟨.hbm, 25, rfl⟩
abbrev main_call0_v0 : Ref sig .tc := ⟨.hbm, 26, rfl⟩
abbrev main_v19 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_call1_v2 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  bcast_S_S16384x256 : S_.BroadcastsInDim S16384x256 (![] : Fin 0 → Fin S16384x256.rank)
  reducesTo_S16384x256_S16384_d1 : S16384x256.ReducesTo [1] S16384
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  dot_S16384x16384_S16384x256_S16384x256_1_0_0_1_n_n_wf : DotDims.WF S16384x16384 S16384x256 S16384x256 [1] [0] [0] [1] [] []
  dot_S16384x256_S256x256_S16384x256_1_0_0_1_n_n_wf : DotDims.WF S16384x256 S256x256 S16384x256 [1] [0] [0] [1] [] []

variable [Facts₀]

def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.K.Region0.lean ====
/-
  The degree pass. Its grid walks the 64 row blocks of the adjacency matrix; at a block the body reads 256 whole
  rows, sums each, adds one, and stores one over the square root: a 256 × 1 column of the array of inverse root
  degrees. Stated here for any float instance and any contents `V` of the core's buffers at the pass's entry:
  what the body leaves in the output's staging buffer as one function of the input block, the body's triple, the
  proof data of the pipeline (inputs found at their blocks, the output left at that function) and the body
  obligation at every grid point.
-/
import proofs.«159487_j53403623358621_2_alg».proof.Proof.Gen.Kernel.Launch
import proofs.«159487_j53403623358621_2_alg».proof.Proof.Gen.Kernel.Skeleton
import proofs.«159487_j53403623358621_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at grid point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 16384 input block and the whole 256 × 1 output block. -/
abbrev rIn0 : Rect S256x16384 := Rect.unit (s := S256x16384) ![0, 0] S256x16384.size inb_S256x16384_S256x16384_0_0
abbrev rOut0 : Rect S256x1 := Rect.unit (s := S256x1) ![0, 0] S256x1.size inb_S256x1_S256x1_0_0

/-- What the body leaves in the output's staging buffer: its one store, of the inverse root degrees of the rows read. -/
def out0_1 (x0 : Vec F S256x16384 .f32) : Vec F S256x1 .f32 :=
  View.canon [⟨rOut0, k0_pay1 (View.ld x0 rIn0)⟩]

/-- The one store covers the buffer. -/
theorem cover0_1 (p0 : Vec F S256x1 .f32) (y : S256x1.Idx) :
    ∃ pc ∈ ([⟨rOut0, p0⟩] : List (View.Piece (Elt F) S256x1 .f32)), y ∈ pc.1.set :=
  View.cover_of_tiled [⟨rOut0, p0⟩] S256x1.size (by rfl) y

set_option maxHeartbeats 1000000 in
/-- The body on whole staging buffers, the input's at contents `x0` and the output's at anything, runs to the
    continuation with the input's unchanged and the output's at `out0_1 x0`. -/
theorem sound_kernel0 (c : Dev nD) (E : Set ℕ) (i : grid0.Coords) (arg1 : Memref sig .tc .vmem S256x16384 .f32) (harg1 : arg1.IsWhole)
    (arg2 : Memref sig .tc .vmem S256x1 .f32) (harg2 : arg2.IsWhole)
    (x0 : Vec F S256x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the degree pass on core `c`: the arrays as the pass finds them; after the body at point `t`
    the input's buffer at its block and the output's at `out0_1` of it; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the degree pass, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Base1.lean ====
/-
  The aggregation pass: what its three control cases share. The grid is 16 row blocks by 16 column blocks, the
  column block innermost. At the first column block the body resets its accumulator (a scratch buffer it keeps
  from point to point) to the row block's own scaled features; at every column block it adds the product of the
  adjacency tile with the scaled features of the tile's columns; at the last one it scales the accumulator's rows,
  applies the weights, the rectifier and the row normalisation, and stores the output block. Stated here, for any
  float instance and any contents `V` of the core's buffers at the pass's entry: each window's block at a point,
  that every input's staging buffer holds its block, the two branch conditions in closed form over the grid, where
  the output window is idle, and the names of the staging and scratch buffers the runs are stated over.
-/
import proofs.«159487_j53403623358621_2_alg».proof.Proof.Gen.Kernel.Launch
import proofs.«159487_j53403623358621_2_alg».proof.Proof.Gen.Kernel.Skeleton
import proofs.«159487_j53403623358621_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Base1
variable (V : (c : Dev nD) → (b : Ref sig .tc) → Buf (Elt F) ((c : Thread nD τ).loc b))

/-- Window `w`'s block at grid point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Base1

/-! ## The body's branch conditions, in closed form over the grid -/

/-- "This is the first column block": the accumulator is reset. -/
abbrev cond1_0 (i : grid1.Coords) : Prop := k1_cond1 i = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last column block": the output block is computed and stored. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last column block the body stores nothing into the output window, and the pipeline does not write it back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last column block it is live. -/
theorem liveAt1_5 : ∀ t : Fin cfg1.N, cond1_1 (grid1.coords t) → cfg1.idle 5 (grid1.coords t) = false := by decide +kernel

/-! ## The staging and scratch buffers the runs are stated over -/

/-- One staging buffer of the output window, through which its contents are stated. -/
abbrev VO1_5 : View sig .tc .vmem S1024x256 .f32 := (Memref.whole cc1_stg5_0 : Memref sig .tc .vmem S1024x256 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1_0 : Memref sig .tc .vmem S1024x256 .f32 := Memref.whole cc1_scratch0
abbrev VS1_0 : View sig .tc .vmem S1024x256 .f32 := scM1_0.view

/-- An assertion beside the other pass's four staging buffers, which this pass never touches: each of them whole at
    some contents. -/
def withIdle (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ S)

/-- The pass's invariant before anything ran: those four buffers, the accumulator at some contents, the generator
    register at some state. -/
theorem PhiA1_eq (c : Dev nD) :
    (Pipeline.ΦA spec1 c : sProp 𝕄)
      = iprop(withIdle (F := F) c (iprop(∃ d, owns (c : Thread nD τ) scM1_0 fullShare d)) ∗ (∃ r, prngReg c r)) := by
  unfold Pipeline.ΦA withIdle; rw [scopedRest1_eq]; simp only [scM1_0, owns_whole]; try rfl

end Cert.Kernel.Hand

end
-- ==== Proof.K.RunA.lean ====
/-
  The aggregation body at a first column block (the reset is taken, the output is not stored): on whole staging
  buffers it runs to its continuation, the inputs and the idle output buffer handed back as found and the
  accumulator left with the pieces its two stores wrote, last first — the reset to the row block's scaled features,
  then that plus the tile's product.
-/
import proofs.«159487_j53403623358621_2_alg».proof.Proof.K.Base1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer (none) and in the accumulator, with the proof
    that the body runs to its continuation leaving them. -/
noncomputable def kernelRun1_A (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x1024 .f32) (x1 : Vec F S16384x256 .f32) (x2 : Vec F S1024x1 .f32) (x3 : Vec F S1024x1 .f32) (x4 : Vec F S256x256 .f32) :
    Σ' (L5 : List (View.Piece (Elt F) S1024x256 .f32)), { LS0 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7 arg8 harg8) K } := by
  refine ⟨[], ?_, fun xi5 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.RunB.lean ====
/-
  The aggregation body at a middle column block (no reset, no output stored): on whole staging buffers it runs to
  its continuation, the inputs and the idle output buffer handed back as found and the accumulator, which comes in
  at the contents the point before left, left with the piece its one store wrote — those contents plus the tile's
  product.
-/
import proofs.«159487_j53403623358621_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer (none) and in the accumulator, with the proof
    that the body runs to its continuation leaving them. -/
noncomputable def kernelRun1_B (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) :
    Σ' (L5 : List (View.Piece (Elt F) S1024x256 .f32)), { LS0 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7 arg8 harg8) K } := by
  refine ⟨[], ?_, fun xi5 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.RunC.lean ====
/-
  The aggregation body at a last column block (no reset, the output stored): on whole staging buffers it runs to
  its continuation, the inputs handed back as found, the accumulator, which comes in at the contents the point
  before left, left with the piece its one store wrote — those contents plus the tile's product — and the output
  buffer, which comes in at anything, left with the piece the final store wrote: the scaled, weighted, rectified
  and row-normalised accumulator.
-/
import proofs.«159487_j53403623358621_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer and in the accumulator, with the proof that the
    body runs to its continuation leaving them. -/
noncomputable def kernelRun1_C (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) :
    Σ' (L5 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7 arg8 harg8) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.K.Region1.lean ====
/-
  The aggregation pass's proof data and body obligation. What each of the three cases of the body (first, middle,
  last column block) leaves in the accumulator and in the output window's staging buffer, as the pieces its stores
  wrote read back; those contents point by point, by recursion on the position (the accumulator comes in at what
  the point before left); the pass's invariant (the accumulator at those contents, beside the other pass's four
  staging buffers, which this pass never touches); the proof data of the pipeline at any contents `V` of the core's
  buffers at the pass's entry; and the body obligation at every grid point, case by case.
-/
import proofs.«159487_j53403623358621_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- At a first column block nothing is stored into the output window (it is idle there and not written back): a
    placeholder that nothing consults. -/
def out1_A_5 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x1024 .f32) (x1 : Vec F S16384x256 .f32) (x2 : Vec F S1024x1 .f32) (x3 : Vec F S1024x1 .f32) (x4 : Vec F S256x256 .f32) : Vec F S1024x256 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- At a first column block the accumulator's two stores (the reset, then the reset plus the product) each cover it. -/
theorem scover1_A_0 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x1024 .f32) (x1 : Vec F S16384x256 .f32) (x2 : Vec F S1024x1 .f32) (x3 : Vec F S1024x1 .f32) (x4 : Vec F S256x256 .f32) (y : S1024x256.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1024x256.size (by sl_kernel_rfl) y

/-- What a first column block leaves in the accumulator: its pieces read back. -/
def sout1_A_0 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x1024 .f32) (x1 : Vec F S16384x256 .f32) (x2 : Vec F S1024x1 .f32) (x3 : Vec F S1024x1 .f32) (x4 : Vec F S256x256 .f32) : Vec F S1024x256 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- At a middle column block nothing is stored into the output window either: the same placeholder. -/
def out1_B_5 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) : Vec F S1024x256 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- At a middle column block the accumulator's one store covers it. -/
theorem scover1_B_0 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) (y : S1024x256.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1024x256.size (by sl_kernel_rfl) y

/-- What a middle column block leaves in the accumulator: its piece read back. -/
def sout1_B_0 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) : Vec F S1024x256 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- At a last column block the one store into the output window covers its block. -/
theorem cover1_C_5 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1024x256.size (by sl_kernel_rfl) y

/-- What a last column block leaves in the output window's staging buffer: its piece read back. -/
def out1_C_5 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) : Vec F S1024x256 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- At a last column block the accumulator's one store covers it. -/
theorem scover1_C_0 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1024x256.size (by sl_kernel_rfl) y

/-- What a last column block leaves in the accumulator: its piece read back. -/
def sout1_C_0 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) : Vec F S1024x256 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the output buffer and the accumulator hold after each point -/

/-- What the output window's staging buffer and the accumulator hold after the body at position `n`: the case the
    closed forms select there (first, middle or last column block), run at the point's buffers and input blocks, the
    accumulator coming in, off a first column block, at what position `n - 1` left. -/
def outsAt1 (c : Dev nD) : (n : ℕ) → n < cfg1.N → Vec F S1024x256 .f32 × Vec F S1024x256 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      if h1 : (n + 1) % 16 = 15 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 16 = 15 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- At a first column block: that case's contents. -/
theorem outsAt1_A (c : Dev nD) (t : Fin cfg1.N) (h0 : t.val % 16 = 0) (h1 : ¬t.val % 16 = 15) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- At a middle column block: that case's contents, over what the point before left. -/
theorem outsAt1_B (c : Dev nD) (t : Fin cfg1.N) (h0 : ¬t.val % 16 = 0) (h1 : ¬t.val % 16 = 15) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last column block: that case's contents, over what the point before left. -/
theorem outsAt1_C (c : Dev nD) (t : Fin cfg1.N) (h0 : ¬t.val % 16 = 0) (h1 : t.val % 16 = 15) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pass's invariant -/

/-- The pass's invariant before position `n`: before the first point every scoped buffer the pass does not stage at
    anything; afterwards the accumulator at what the point before left. -/
def PhiS1 (c : Dev nD) : (n : ℕ) → n ≤ cfg1.N → sProp 𝕄
  | 0, _ => Pipeline.ΦA spec1 c
  | n + 1, hn => iprop(withIdle (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(withIdle (F := F) c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(withIdle (F := F) c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the aggregation pass on core `c`. The array of inverse root degrees is handed to the pass twice
    (once blocked by rows, once by columns): each of the two windows holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point. The inputs' buffers hold their blocks; the closed forms say which of the three cases the
    point is in, so that case's run applies; the invariant hands the body the accumulator at what the point before
    left (at anything at the very first point) and takes it back at this point's contents, the other pass's four
    buffers passing by; off a last column block the output window is idle and its buffer is handed back as found, at
    a last column block it is left at the stored block; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]; unfold withIdle
        iintro ⟨⟨⟨HI0, HI1, HI2, HI3, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HI0 HI1 HI2 HI3 HS0 Hg]
        · isplitl [HI0 HI1 HI2 HI3 HS0]
          · isplitl [HI0]; · iexact HI0
            isplitl [HI1]; · iexact HI1
            isplitl [HI2]; · iexact HI2
            isplitl [HI3]; · iexact HI3
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]; unfold withIdle
        iintro ⟨⟨⟨HI0, HI1, HI2, HI3, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HI0 HI1 HI2 HI3 HS0 Hg]
        · isplitl [HI0 HI1 HI2 HI3 HS0]
          · isplitl [HI0]; · iexact HI0
            isplitl [HI1]; · iexact HI1
            isplitl [HI2]; · iexact HI2
            isplitl [HI3]; · iexact HI3
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]; unfold withIdle
        iintro ⟨⟨⟨HI0, HI1, HI2, HI3, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HI0 HI1 HI2 HI3 HS0 Hg]
        · isplitl [HI0 HI1 HI2 HI3 HS0]
          · isplitl [HI0]; · iexact HI0
            isplitl [HI1]; · iexact HI1
            isplitl [HI2]; · iexact HI2
            isplitl [HI3]; · iexact HI3
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]; unfold withIdle
        iintro ⟨⟨⟨HI0, HI1, HI2, HI3, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HI0 HI1 HI2 HI3 HS0 Hg]
        · isplitl [HI0 HI1 HI2 HI3 HS0]
          · isplitl [HI0]; · iexact HI0
            isplitl [HI1]; · iexact HI1
            isplitl [HI2]; · iexact HI2
            isplitl [HI3]; · iexact HI3
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation of the aggregation pass, at every point. -/
theorem body_obligation1 (c : Dev nD) : BodyObligation (dat1 (F := F) V c) (defs₀ (F := F)) Variants.none () Set.univ := fun t => by
  rw [bigSep_W1, bigSep_W1]
  exact sound_body1 V c t

/-- What the launch hands the pass is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold withIdle
  iintro ⟨⟨HI0, HI1, HI2, HI3, HS0⟩, Hg⟩
  isplitl [HI0 HI1 HI2 HI3 HS0]
  · isplitl [HI0]; · iexact HI0
    isplitl [HI1]; · iexact HI1
    isplitl [HI2]; · iexact HI2
    isplitl [HI3]; · iexact HI3
    iexists _; iexact HS0
  iexact Hg

/-- After the last point the invariant gives it back, the accumulator's contents forgotten. -/
theorem hout1 (c : Dev nD) : (dat1 V c).Φ (Fin.last cfg1.N) ⊢ Pipeline.ΦA spec1 c :=
  Phi_out1 V c _ (by rw [Fin.val_last]; have : cfg1.N = 256 := N_1; omega)

end Region1

end Cert.Kernel.Hand

end
-- ==== Proof.K.Segments.lean ====
/-
  The run of @main over its two passes. The program is two kernel calls and nothing else: the degree pass, which
  fills the array of inverse root degrees, and the aggregation pass, which reads that array twice — once blocked by
  rows, once by columns — beside the adjacency matrix, the features and the weights, and fills the result. Stated
  here: the contents of the core's unscoped buffers at the three boundaries (launch, between the passes, return),
  each pass as a segment over the thread state "every unscoped buffer at the boundary's contents, the generator
  register at some state, nothing owed", and the run of @main from any launch memory: it terminates, the arguments
  end as launched and the result holds what the aggregation pass's write-backs leave.

  The aggregation pass holds one array through two windows, so its arrays are not distinct buffers: at its entry
  the array's full-share points-to is split into two halves, one per window, and at its exit the halves — both at
  the contents the pass found, inputs being never written — are joined again.
-/
import proofs.«159487_j53403623358621_2_alg».proof.Proof.K.Region0
import proofs.«159487_j53403623358621_2_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the boundaries -/

/-- Core `c`'s buffers at launch. -/
abbrev W0 (c : Dev nD) : Valuation τ sig (Elt F) := fun b => m (c, b)
/-- The same read at the core's references: the degree pass's entry contents. -/
abbrev V0 : (c : Dev nD) → (b : Ref sig .tc) → Buf (Elt F) ((c : Thread nD τ).loc b) := fun c b => W0 m c b

/-- Between the passes: the degree pass's arrays at what its write-backs leave, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the core's references: the aggregation pass's entry contents. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- At the return: only the result array has changed, to what the aggregation pass's write-backs leave. -/
def W2 (c : Dev nD) : Valuation τ sig (Elt F) :=
  Function.update (W1 m c) (Proc.devRef .tc main_v1) ((dat1 (V1 m) c).arrAt 5 cfg1.N)

/-- Between the passes the array of inverse root degrees holds what the degree pass's write-backs leave, -/
theorem V1_main_v0 (c : Dev nD) : V1 m c main_v0 = (dat0 (V0 m) c).arrAt 1 cfg0.N := W1_arr m c 1
/-- the adjacency matrix, which the degree pass only reads, what it held at launch, -/
theorem V1_main_arg1 (c : Dev nD) : V1 m c main_arg1 = m ((c : Thread nD τ).loc main_arg1) :=
  (W1_arr m c 0).trans (((dat0 (V0 m) c).arrAt_in 0 rfl _).trans (A_eq0 (V0 m) c 0))
/-- and the features and the weights, which it bypasses, too. -/
theorem V1_main_arg0 (c : Dev nD) : V1 m c main_arg0 = m ((c : Thread nD τ).loc main_arg0) :=
  W1_of_ne m c main_arg0 (by decide)
theorem V1_main_arg2 (c : Dev nD) : V1 m c main_arg2 = m ((c : Thread nD τ).loc main_arg2) :=
  W1_of_ne m c main_arg2 (by decide)

/-! ## The proof data family and the thread state -/

/-- The prefetched tables' admissible contents: no pass has a table. -/
abbrev adm : (p : Fin 2) → (pcfgs (F := F) p).Adm := fun p => (cfgs p).toPCfg_adm
/-- Both passes' proof data, each at its entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both passes: the core's generator register at some state and that it owes
    nothing. -/
abbrev R (c : Dev nD) : sProp 𝕄 := iprop((∃ r, prngReg c r) ∗ ∃ W, owes (c : Thread nD τ) (0 : CellTallies nD τ sig Unit) W)
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register
    at some state. -/
abbrev Tₙ (c : Dev nD) : sProp 𝕄 := iprop(StableHlo.held (c : Thread nD τ) (Pipeline.ucRefs τ sig) (W2 m c) ∗ ∃ r, prngReg c r)

/-! ## The degree pass as a segment -/

set_option backward.isDefEq.respectTransparency.types false in
/-- The degree pass over the thread state: entered from every unscoped buffer as launched, left at `W1`. Its two
    arrays are distinct buffers, split out of the unscoped buffers and put back at the exit contents; the generator
    register goes into the pass's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The core's unscoped buffers and the aggregation pass's arrays, one by one -/

/-- A core's five unscoped buffers — the three arguments, the inverse root degrees, the result — held whole at the full
    share at a valuation, listed. -/
theorem held_eq (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v0) ↦{fullShare} W main_v0)
          ∗ (((c : Thread nD τ).loc main_v1) ↦{fullShare} W main_v1)) := by
  unfold StableHlo.held
  rw [bigSep_eq_bigSepL_of_eq [Proc.devRef .tc main_arg0, Proc.devRef .tc main_arg1, Proc.devRef .tc main_arg2, Proc.devRef .tc main_v0, Proc.devRef .tc main_v1] (by decide) (by decide)]
  rfl

/-- The aggregation pass's six windowed arrays at contents `G`, listed: every array a whole buffer; the adjacency
    matrix, the features, the weights and the result at the full share, the inverse root degrees at its left half
    through the row-blocked window and at its right half through the column-blocked one. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_arg0) ↦{fullShare} G 1)
          ∗ (((c : Thread nD τ).loc main_v0) ↦{fullShare.left} G 2) ∗ (((c : Thread nD τ).loc main_v0) ↦{fullShare.right} G 3)
          ∗ (((c : Thread nD τ).loc main_arg2) ↦{fullShare} G 4) ∗ (((c : Thread nD τ).loc main_v1) ↦{fullShare} G 5)) := by
  have h : ((dat1 V c).arrays G : sProp 𝕄)
      = bigSep Finset.univ fun w => (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1]
  rfl

/-- ENTRY of the aggregation pass, the arrays' part: the core's unscoped buffers at the contents between the passes are
    the pass's arrays at its entry contents — the inverse root degrees' full share split into the two windows' halves. -/
theorem arrays_of_held1 (c : Dev nD) :
    (StableHlo.held (c : Thread nD τ) (Pipeline.ucRefs τ sig) (W1 m c) : sProp 𝕄)
      ⊢ (dat1 (V1 m) c).arrays ((dat1 (V1 m) c).arrAt · 0) := by
  rw [held_eq, arrays1_eq]
  iintro ⟨H0, H1, H2, H3, H4⟩
  ihave H3' := (pointsTo_share (PosShare.mem_left_op_right fullShare)).1 $$ H3
  icases H3' with ⟨H3l, H3r⟩
  isplitl [H1]; · iexact H1
  isplitl [H0]; · iexact H0
  isplitl [H3l]; · iexact H3l
  isplitl [H3r]; · iexact H3r
  isplitl [H2]; · iexact H2
  iexact H4

/-- EXIT of the aggregation pass, the arrays' part: its arrays at their final contents — every input as the pass found
    it, so the two halves of the inverse root degrees hold the same contents and join; the result at what the
    write-backs leave — are the core's unscoped buffers at the return's contents. -/
theorem held_of_arrays1 (c : Dev nD) :
    ((dat1 (V1 m) c).arrays ((dat1 (V1 m) c).arrAt · cfg1.N) : sProp 𝕄)
      ⊢ StableHlo.held (c : Thread nD τ) (Pipeline.ucRefs τ sig) (W2 m c) := by
  rw [held_eq, arrays1_eq,
    (dat1 (V1 m) c).arrAt_in 0 rfl, (dat1 (V1 m) c).arrAt_in 1 rfl, (dat1 (V1 m) c).arrAt_in 2 rfl,
    (dat1 (V1 m) c).arrAt_in 3 rfl, (dat1 (V1 m) c).arrAt_in 4 rfl,
    show W2 m c main_arg0 = W1 m c main_arg0 from Function.update_of_ne (StableHlo.devRef_ne_of_ne (by decide)) _ _,
    show W2 m c main_arg1 = W1 m c main_arg1 from Function.update_of_ne (StableHlo.devRef_ne_of_ne (by decide)) _ _,
    show W2 m c main_arg2 = W1 m c main_arg2 from Function.update_of_ne (StableHlo.devRef_ne_of_ne (by decide)) _ _,
    show W2 m c main_v0 = W1 m c main_v0 from Function.update_of_ne (StableHlo.devRef_ne_of_ne (by decide)) _ _,
    show W2 m c main_v1 = (dat1 (V1 m) c).arrAt 5 cfg1.N from Function.update_self _ _ _]
  iintro ⟨H0, H1, H2, H3, H4, H5⟩
  isplitl [H1]; · iexact H1
  isplitl [H0]; · iexact H0
  isplitl [H4]; · iexact H4
  isplitl [H2 H3]
  · iapply (pointsTo_share (PosShare.mem_left_op_right fullShare)).2
    isplitl [H2]; · iexact H2
    iexact H3
  iexact H5

/-! ## The aggregation pass as a segment -/

set_option backward.isDefEq.respectTransparency.types false in
/-- The aggregation pass over the thread state: entered from every unscoped buffer at `W1`, left at `W2`. All five
    unscoped buffers are arrays of the pass, so nothing bypasses it; the generator register goes into the pass's
    invariant beside the scoped buffers it does not stage — the accumulator among them — and comes back; nothing is
    owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none]
    iintro ⟨⟨Hub, Hp, HO⟩, -, -⟩
    ihave Ha := (arrays_of_held1 m c) $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    refine BIBase.Entails.trans ?_ (hin1 (V1 m) c)
    unfold Pipeline.ΦA
    iintro ⟨Hp, -, Hr⟩
    isplitl [Hr]; · iexact Hr
    iexact Hp
  hout c := by
    rw [Pipeline.ownSems0_none]
    refine BIBase.Entails.trans (hout1 (V1 m) c) ?_
    unfold Pipeline.ΦA
    iintro ⟨Hr, Hp⟩
    isplitl [Hp]; · iexact Hp
    isplitr; · iempintro
    iexact Hr
  hexit c := by
    iintro ⟨Ha, HO, HY, -⟩
    imodintro
    isplitl [Ha HY]
    · isplitl [Ha]
      · iapply (held_of_arrays1 m c); iexact Ha
      iexact HY
    unfold Pipeline.Dat.owesAt Pipeline.owesWithin
    icases HO with ⟨%W, -, HO⟩; iexists W; iexact HO

/-! ## @main as segments, and the launch -/

/-- @main's two segments: the degree pass, then the aggregation pass. -/
abbrev segs : List (Pipeline.Seg (pcfgs (F := F)) adm (pdats m) () defs₀ 𝒱₀ L lv) :=
  [ .region (reg0 m), .region (reg1 m) ]
/-- @main is the run of the segments. -/
theorem main_run (c : Dev nD) : main (F := F) c = Pipeline.Seg.run (segs m) := (main_chain c).trans (by chain_rfl)

set_option backward.isDefEq.respectTransparency.types false in
/-- From any launch memory with every counter at zero, every weakly fair execution of @main terminates, nothing
    faulting, and any property of the final memory that follows from "every unscoped buffer holds the return's
    contents `W2`" holds of it. -/
theorem run_of {Q : PUnit × MemSt nD τ sig (Elt F) → Prop}
    (hQ : ∀ s : MemSt nD τ sig (Elt F), (∀ c : Dev nD, ∀ b ∈ Pipeline.ucRefs τ sig, s.mem ((c : Thread nD τ).1, b) = W2 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := hQ)

/-- THE RUN: @main terminates from any launch memory, and at the end every unscoped buffer holds the return's contents. -/
theorem run : θ_run defs (onTc (τ := τ) (main (F := F))) ⟨m, fun _ => 0, ρ⟩
    (fun r => ∀ c : Dev nD, ∀ b ∈ Pipeline.ucRefs τ sig, r.2.mem ((c : Thread nD τ).1, b) = W2 m c b) :=
  run_of m ρ fun s h => h

/-! ## The return's contents at the arguments and the result -/

theorem W2_main_arg0 (c : Dev nD) : W2 m c (Proc.devRef .tc main_arg0) = m ((c : Thread nD τ).loc main_arg0) :=
  (Function.update_of_ne (StableHlo.devRef_ne_of_ne (by decide)) _ _).trans (V1_main_arg0 m c)
theorem W2_main_arg1 (c : Dev nD) : W2 m c (Proc.devRef .tc main_arg1) = m ((c : Thread nD τ).loc main_arg1) :=
  (Function.update_of_ne (StableHlo.devRef_ne_of_ne (by decide)) _ _).trans (V1_main_arg1 m c)
theorem W2_main_arg2 (c : Dev nD) : W2 m c (Proc.devRef .tc main_arg2) = m ((c : Thread nD τ).loc main_arg2) :=
  (Function.update_of_ne (StableHlo.devRef_ne_of_ne (by decide)) _ _).trans (V1_main_arg2 m c)
theorem W2_main_v1 (c : Dev nD) : W2 m c (Proc.devRef .tc main_v1) = (dat1 (V1 m) c).arrAt 5 cfg1.N :=
  Function.update_self _ _ _

/-- THE FRAME: @main terminates and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ fun s h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩

/-- THE RESULT: moreover the result array ends at what the aggregation pass's write-backs leave, from the contents
    between the passes. -/
theorem run_value : θ_run defs (onTc (τ := τ) (main (F := F))) ⟨m, fun _ => 0, ρ⟩ (fun r => ∀ c : Dev nD,
      r.2.mem ((c.tc : Thread nD τ).loc main_v1) = (dat1 (V1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ fun s h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩

end Cert.Kernel.Hand

end
-- ==== Proof.KI.Region0.lean ====
/-
  The degree pass. Its grid walks the 64 row blocks of the adjacency matrix; at a block the body reads 256 whole
  rows, sums each, adds one, and stores one over the square root: a 256 × 1 column of the array of inverse root
  degrees. Stated here for any float instance and any contents `V` of the core's buffers at the pass's entry:
  what the body leaves in the output's staging buffer as one function of the input block, the body's triple, the
  proof data of the pipeline (inputs found at their blocks, the output left at that function) and the body
  obligation at every grid point.
-/
import proofs.«159487_j53403623358621_2_alg».proof.Proof.Gen.KernelIdeal.Launch
import proofs.«159487_j53403623358621_2_alg».proof.Proof.Gen.KernelIdeal.Skeleton
import proofs.«159487_j53403623358621_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at grid point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 16384 input block and the whole 256 × 1 output block. -/
abbrev rIn0 : Rect S256x16384 := Rect.unit (s := S256x16384) ![0, 0] S256x16384.size inb_S256x16384_S256x16384_0_0
abbrev rOut0 : Rect S256x1 := Rect.unit (s := S256x1) ![0, 0] S256x1.size inb_S256x1_S256x1_0_0

/-- What the body leaves in the output's staging buffer: its one store, of the inverse root degrees of the rows read. -/
def out0_1 (x0 : Vec F S256x16384 .f32) : Vec F S256x1 .f32 :=
  View.canon [⟨rOut0, k0_pay1 (View.ld x0 rIn0)⟩]

/-- The one store covers the buffer. -/
theorem cover0_1 (p0 : Vec F S256x1 .f32) (y : S256x1.Idx) :
    ∃ pc ∈ ([⟨rOut0, p0⟩] : List (View.Piece (Elt F) S256x1 .f32)), y ∈ pc.1.set :=
  View.cover_of_tiled [⟨rOut0, p0⟩] S256x1.size (by rfl) y

set_option maxHeartbeats 1000000 in
/-- The body on whole staging buffers, the input's at contents `x0` and the output's at anything, runs to the
    continuation with the input's unchanged and the output's at `out0_1 x0`. -/
theorem sound_kernel0 (c : Dev nD) (E : Set ℕ) (i : grid0.Coords) (arg1 : Memref sig .tc .vmem S256x16384 .f32) (harg1 : arg1.IsWhole)
    (arg2 : Memref sig .tc .vmem S256x1 .f32) (harg2 : arg2.IsWhole)
    (x0 : Vec F S256x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the degree pass on core `c`: the arrays as the pass finds them; after the body at point `t`
    the input's buffer at its block and the output's at `out0_1` of it; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the degree pass, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Base1.lean ====
/-
  The aggregation pass: what its three control cases share. The grid is 16 row blocks by 16 column blocks, the
  column block innermost. At the first column block the body resets its accumulator (a scratch buffer it keeps
  from point to point) to the row block's own scaled features; at every column block it adds the product of the
  adjacency tile with the scaled features of the tile's columns; at the last one it scales the accumulator's rows,
  applies the weights, the rectifier and the row normalisation, and stores the output block. Stated here, for any
  float instance and any contents `V` of the core's buffers at the pass's entry: each window's block at a point,
  that every input's staging buffer holds its block, the two branch conditions in closed form over the grid, where
  the output window is idle, and the names of the staging and scratch buffers the runs are stated over.
-/
import proofs.«159487_j53403623358621_2_alg».proof.Proof.Gen.KernelIdeal.Launch
import proofs.«159487_j53403623358621_2_alg».proof.Proof.Gen.KernelIdeal.Skeleton
import proofs.«159487_j53403623358621_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Base1
variable (V : (c : Dev nD) → (b : Ref sig .tc) → Buf (Elt F) ((c : Thread nD τ).loc b))

/-- Window `w`'s block at grid point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Base1

/-! ## The body's branch conditions, in closed form over the grid -/

/-- "This is the first column block": the accumulator is reset. -/
abbrev cond1_0 (i : grid1.Coords) : Prop := k1_cond1 i = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last column block": the output block is computed and stored. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last column block the body stores nothing into the output window, and the pipeline does not write it back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last column block it is live. -/
theorem liveAt1_5 : ∀ t : Fin cfg1.N, cond1_1 (grid1.coords t) → cfg1.idle 5 (grid1.coords t) = false := by decide +kernel

/-! ## The staging and scratch buffers the runs are stated over -/

/-- One staging buffer of the output window, through which its contents are stated. -/
abbrev VO1_5 : View sig .tc .vmem S1024x256 .f32 := (Memref.whole cc1_stg5_0 : Memref sig .tc .vmem S1024x256 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1_0 : Memref sig .tc .vmem S1024x256 .f32 := Memref.whole cc1_scratch0
abbrev VS1_0 : View sig .tc .vmem S1024x256 .f32 := scM1_0.view

/-- An assertion beside the other pass's four staging buffers, which this pass never touches: each of them whole at
    some contents. -/
def withIdle (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ S)

/-- The pass's invariant before anything ran: those four buffers, the accumulator at some contents, the generator
    register at some state. -/
theorem PhiA1_eq (c : Dev nD) :
    (Pipeline.ΦA spec1 c : sProp 𝕄)
      = iprop(withIdle (F := F) c (iprop(∃ d, owns (c : Thread nD τ) scM1_0 fullShare d)) ∗ (∃ r, prngReg c r)) := by
  unfold Pipeline.ΦA withIdle; rw [scopedRest1_eq]; simp only [scM1_0, owns_whole]; try rfl

end Cert.KernelIdeal.Hand

end
-- ==== Proof.KI.RunA.lean ====
/-
  The aggregation body at a first column block (the reset is taken, the output is not stored): on whole staging
  buffers it runs to its continuation, the inputs and the idle output buffer handed back as found and the
  accumulator left with the pieces its two stores wrote, last first — the reset to the row block's scaled features,
  then that plus the tile's product.
-/
import proofs.«159487_j53403623358621_2_alg».proof.Proof.KI.Base1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer (none) and in the accumulator, with the proof
    that the body runs to its continuation leaving them. -/
noncomputable def kernelRun1_A (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x1024 .f32) (x1 : Vec F S16384x256 .f32) (x2 : Vec F S1024x1 .f32) (x3 : Vec F S1024x1 .f32) (x4 : Vec F S256x256 .f32) :
    Σ' (L5 : List (View.Piece (Elt F) S1024x256 .f32)), { LS0 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7 arg8 harg8) K } := by
  refine ⟨[], ?_, fun xi5 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.RunB.lean ====
/-
  The aggregation body at a middle column block (no reset, no output stored): on whole staging buffers it runs to
  its continuation, the inputs and the idle output buffer handed back as found and the accumulator, which comes in
  at the contents the point before left, left with the piece its one store wrote — those contents plus the tile's
  product.
-/
import proofs.«159487_j53403623358621_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer (none) and in the accumulator, with the proof
    that the body runs to its continuation leaving them. -/
noncomputable def kernelRun1_B (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) :
    Σ' (L5 : List (View.Piece (Elt F) S1024x256 .f32)), { LS0 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7 arg8 harg8) K } := by
  refine ⟨[], ?_, fun xi5 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.RunC.lean ====
/-
  The aggregation body at a last column block (no reset, the output stored): on whole staging buffers it runs to
  its continuation, the inputs handed back as found, the accumulator, which comes in at the contents the point
  before left, left with the piece its one store wrote — those contents plus the tile's product — and the output
  buffer, which comes in at anything, left with the piece the final store wrote: the scaled, weighted, rectified
  and row-normalised accumulator.
-/
import proofs.«159487_j53403623358621_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer and in the accumulator, with the proof that the
    body runs to its continuation leaving them. -/
noncomputable def kernelRun1_C (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) :
    Σ' (L5 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7 arg8 harg8) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.Region1.lean ====
/-
  The aggregation pass's proof data and body obligation. What each of the three cases of the body (first, middle,
  last column block) leaves in the accumulator and in the output window's staging buffer, as the pieces its stores
  wrote read back; those contents point by point, by recursion on the position (the accumulator comes in at what
  the point before left); the pass's invariant (the accumulator at those contents, beside the other pass's four
  staging buffers, which this pass never touches); the proof data of the pipeline at any contents `V` of the core's
  buffers at the pass's entry; and the body obligation at every grid point, case by case.
-/
import proofs.«159487_j53403623358621_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- At a first column block nothing is stored into the output window (it is idle there and not written back): a
    placeholder that nothing consults. -/
def out1_A_5 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x1024 .f32) (x1 : Vec F S16384x256 .f32) (x2 : Vec F S1024x1 .f32) (x3 : Vec F S1024x1 .f32) (x4 : Vec F S256x256 .f32) : Vec F S1024x256 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- At a first column block the accumulator's two stores (the reset, then the reset plus the product) each cover it. -/
theorem scover1_A_0 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x1024 .f32) (x1 : Vec F S16384x256 .f32) (x2 : Vec F S1024x1 .f32) (x3 : Vec F S1024x1 .f32) (x4 : Vec F S256x256 .f32) (y : S1024x256.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1024x256.size (by sl_kernel_rfl) y

/-- What a first column block leaves in the accumulator: its pieces read back. -/
def sout1_A_0 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x1024 .f32) (x1 : Vec F S16384x256 .f32) (x2 : Vec F S1024x1 .f32) (x3 : Vec F S1024x1 .f32) (x4 : Vec F S256x256 .f32) : Vec F S1024x256 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- At a middle column block nothing is stored into the output window either: the same placeholder. -/
def out1_B_5 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) : Vec F S1024x256 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- At a middle column block the accumulator's one store covers it. -/
theorem scover1_B_0 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) (y : S1024x256.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1024x256.size (by sl_kernel_rfl) y

/-- What a middle column block leaves in the accumulator: its piece read back. -/
def sout1_B_0 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) : Vec F S1024x256 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- At a last column block the one store into the output window covers its block. -/
theorem cover1_C_5 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1024x256.size (by sl_kernel_rfl) y

/-- What a last column block leaves in the output window's staging buffer: its piece read back. -/
def out1_C_5 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) : Vec F S1024x256 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- At a last column block the accumulator's one store covers it. -/
theorem scover1_C_0 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1024x256.size (by sl_kernel_rfl) y

/-- What a last column block leaves in the accumulator: its piece read back. -/
def sout1_C_0 (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) : Vec F S1024x256 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the output buffer and the accumulator hold after each point -/

/-- What the output window's staging buffer and the accumulator hold after the body at position `n`: the case the
    closed forms select there (first, middle or last column block), run at the point's buffers and input blocks, the
    accumulator coming in, off a first column block, at what position `n - 1` left. -/
def outsAt1 (c : Dev nD) : (n : ℕ) → n < cfg1.N → Vec F S1024x256 .f32 × Vec F S1024x256 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      if h1 : (n + 1) % 16 = 15 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 16 = 15 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- At a first column block: that case's contents. -/
theorem outsAt1_A (c : Dev nD) (t : Fin cfg1.N) (h0 : t.val % 16 = 0) (h1 : ¬t.val % 16 = 15) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- At a middle column block: that case's contents, over what the point before left. -/
theorem outsAt1_B (c : Dev nD) (t : Fin cfg1.N) (h0 : ¬t.val % 16 = 0) (h1 : ¬t.val % 16 = 15) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last column block: that case's contents, over what the point before left. -/
theorem outsAt1_C (c : Dev nD) (t : Fin cfg1.N) (h0 : ¬t.val % 16 = 0) (h1 : t.val % 16 = 15) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pass's invariant -/

/-- The pass's invariant before position `n`: before the first point every scoped buffer the pass does not stage at
    anything; afterwards the accumulator at what the point before left. -/
def PhiS1 (c : Dev nD) : (n : ℕ) → n ≤ cfg1.N → sProp 𝕄
  | 0, _ => Pipeline.ΦA spec1 c
  | n + 1, hn => iprop(withIdle (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(withIdle (F := F) c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(withIdle (F := F) c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the aggregation pass on core `c`. The array of inverse root degrees is handed to the pass twice
    (once blocked by rows, once by columns): each of the two windows holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point. The inputs' buffers hold their blocks; the closed forms say which of the three cases the
    point is in, so that case's run applies; the invariant hands the body the accumulator at what the point before
    left (at anything at the very first point) and takes it back at this point's contents, the other pass's four
    buffers passing by; off a last column block the output window is idle and its buffer is handed back as found, at
    a last column block it is left at the stored block; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]; unfold withIdle
        iintro ⟨⟨⟨HI0, HI1, HI2, HI3, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HI0 HI1 HI2 HI3 HS0 Hg]
        · isplitl [HI0 HI1 HI2 HI3 HS0]
          · isplitl [HI0]; · iexact HI0
            isplitl [HI1]; · iexact HI1
            isplitl [HI2]; · iexact HI2
            isplitl [HI3]; · iexact HI3
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]; unfold withIdle
        iintro ⟨⟨⟨HI0, HI1, HI2, HI3, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HI0 HI1 HI2 HI3 HS0 Hg]
        · isplitl [HI0 HI1 HI2 HI3 HS0]
          · isplitl [HI0]; · iexact HI0
            isplitl [HI1]; · iexact HI1
            isplitl [HI2]; · iexact HI2
            isplitl [HI3]; · iexact HI3
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]; unfold withIdle
        iintro ⟨⟨⟨HI0, HI1, HI2, HI3, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HI0 HI1 HI2 HI3 HS0 Hg]
        · isplitl [HI0 HI1 HI2 HI3 HS0]
          · isplitl [HI0]; · iexact HI0
            isplitl [HI1]; · iexact HI1
            isplitl [HI2]; · iexact HI2
            isplitl [HI3]; · iexact HI3
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]; unfold withIdle
        iintro ⟨⟨⟨HI0, HI1, HI2, HI3, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HI0 HI1 HI2 HI3 HS0 Hg]
        · isplitl [HI0 HI1 HI2 HI3 HS0]
          · isplitl [HI0]; · iexact HI0
            isplitl [HI1]; · iexact HI1
            isplitl [HI2]; · iexact HI2
            isplitl [HI3]; · iexact HI3
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation of the aggregation pass, at every point. -/
theorem body_obligation1 (c : Dev nD) : BodyObligation (dat1 (F := F) V c) (defs₀ (F := F)) Variants.none () Set.univ := fun t => by
  rw [bigSep_W1, bigSep_W1]
  exact sound_body1 V c t

/-- What the launch hands the pass is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold withIdle
  iintro ⟨⟨HI0, HI1, HI2, HI3, HS0⟩, Hg⟩
  isplitl [HI0 HI1 HI2 HI3 HS0]
  · isplitl [HI0]; · iexact HI0
    isplitl [HI1]; · iexact HI1
    isplitl [HI2]; · iexact HI2
    isplitl [HI3]; · iexact HI3
    iexists _; iexact HS0
  iexact Hg

/-- After the last point the invariant gives it back, the accumulator's contents forgotten. -/
theorem hout1 (c : Dev nD) : (dat1 V c).Φ (Fin.last cfg1.N) ⊢ Pipeline.ΦA spec1 c :=
  Phi_out1 V c _ (by rw [Fin.val_last]; have : cfg1.N = 256 := N_1; omega)

end Region1

end Cert.KernelIdeal.Hand

end
-- ==== Proof.KI.Segments.lean ====
/-
  The run of @main over its two passes. The program is two kernel calls and nothing else: the degree pass, which
  fills the array of inverse root degrees, and the aggregation pass, which reads that array twice — once blocked by
  rows, once by columns — beside the adjacency matrix, the features and the weights, and fills the result. Stated
  here: the contents of the core's unscoped buffers at the three boundaries (launch, between the passes, return),
  each pass as a segment over the thread state "every unscoped buffer at the boundary's contents, the generator
  register at some state, nothing owed", and the run of @main from any launch memory: it terminates, the arguments
  end as launched and the result holds what the aggregation pass's write-backs leave.

  The aggregation pass holds one array through two windows, so its arrays are not distinct buffers: at its entry
  the array's full-share points-to is split into two halves, one per window, and at its exit the halves — both at
  the contents the pass found, inputs being never written — are joined again.
-/
import proofs.«159487_j53403623358621_2_alg».proof.Proof.KI.Region0
import proofs.«159487_j53403623358621_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the boundaries -/

/-- Core `c`'s buffers at launch. -/
abbrev W0 (c : Dev nD) : Valuation τ sig (Elt F) := fun b => m (c, b)
/-- The same read at the core's references: the degree pass's entry contents. -/
abbrev V0 : (c : Dev nD) → (b : Ref sig .tc) → Buf (Elt F) ((c : Thread nD τ).loc b) := fun c b => W0 m c b

/-- Between the passes: the degree pass's arrays at what its write-backs leave, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the core's references: the aggregation pass's entry contents. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- At the return: only the result array has changed, to what the aggregation pass's write-backs leave. -/
def W2 (c : Dev nD) : Valuation τ sig (Elt F) :=
  Function.update (W1 m c) (Proc.devRef .tc main_v1) ((dat1 (V1 m) c).arrAt 5 cfg1.N)

/-- Between the passes the array of inverse root degrees holds what the degree pass's write-backs leave, -/
theorem V1_main_v0 (c : Dev nD) : V1 m c main_v0 = (dat0 (V0 m) c).arrAt 1 cfg0.N := W1_arr m c 1
/-- the adjacency matrix, which the degree pass only reads, what it held at launch, -/
theorem V1_main_arg1 (c : Dev nD) : V1 m c main_arg1 = m ((c : Thread nD τ).loc main_arg1) :=
  (W1_arr m c 0).trans (((dat0 (V0 m) c).arrAt_in 0 rfl _).trans (A_eq0 (V0 m) c 0))
/-- and the features and the weights, which it bypasses, too. -/
theorem V1_main_arg0 (c : Dev nD) : V1 m c main_arg0 = m ((c : Thread nD τ).loc main_arg0) :=
  W1_of_ne m c main_arg0 (by decide)
theorem V1_main_arg2 (c : Dev nD) : V1 m c main_arg2 = m ((c : Thread nD τ).loc main_arg2) :=
  W1_of_ne m c main_arg2 (by decide)

/-! ## The proof data family and the thread state -/

/-- The prefetched tables' admissible contents: no pass has a table. -/
abbrev adm : (p : Fin 2) → (pcfgs (F := F) p).Adm := fun p => (cfgs p).toPCfg_adm
/-- Both passes' proof data, each at its entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both passes: the core's generator register at some state and that it owes
    nothing. -/
abbrev R (c : Dev nD) : sProp 𝕄 := iprop((∃ r, prngReg c r) ∗ ∃ W, owes (c : Thread nD τ) (0 : CellTallies nD τ sig Unit) W)
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register
    at some state. -/
abbrev Tₙ (c : Dev nD) : sProp 𝕄 := iprop(StableHlo.held (c : Thread nD τ) (Pipeline.ucRefs τ sig) (W2 m c) ∗ ∃ r, prngReg c r)

/-! ## The degree pass as a segment -/

set_option backward.isDefEq.respectTransparency.types false in
/-- The degree pass over the thread state: entered from every unscoped buffer as launched, left at `W1`. Its two
    arrays are distinct buffers, split out of the unscoped buffers and put back at the exit contents; the generator
    register goes into the pass's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The core's unscoped buffers and the aggregation pass's arrays, one by one -/

/-- A core's five unscoped buffers — the three arguments, the inverse root degrees, the result — held whole at the full
    share at a valuation, listed. -/
theorem held_eq (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v0) ↦{fullShare} W main_v0)
          ∗ (((c : Thread nD τ).loc main_v1) ↦{fullShare} W main_v1)) := by
  unfold StableHlo.held
  rw [bigSep_eq_bigSepL_of_eq [Proc.devRef .tc main_arg0, Proc.devRef .tc main_arg1, Proc.devRef .tc main_arg2, Proc.devRef .tc main_v0, Proc.devRef .tc main_v1] (by decide) (by decide)]
  rfl

/-- The aggregation pass's six windowed arrays at contents `G`, listed: every array a whole buffer; the adjacency
    matrix, the features, the weights and the result at the full share, the inverse root degrees at its left half
    through the row-blocked window and at its right half through the column-blocked one. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_arg0) ↦{fullShare} G 1)
          ∗ (((c : Thread nD τ).loc main_v0) ↦{fullShare.left} G 2) ∗ (((c : Thread nD τ).loc main_v0) ↦{fullShare.right} G 3)
          ∗ (((c : Thread nD τ).loc main_arg2) ↦{fullShare} G 4) ∗ (((c : Thread nD τ).loc main_v1) ↦{fullShare} G 5)) := by
  have h : ((dat1 V c).arrays G : sProp 𝕄)
      = bigSep Finset.univ fun w => (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1]
  rfl

/-- ENTRY of the aggregation pass, the arrays' part: the core's unscoped buffers at the contents between the passes are
    the pass's arrays at its entry contents — the inverse root degrees' full share split into the two windows' halves. -/
theorem arrays_of_held1 (c : Dev nD) :
    (StableHlo.held (c : Thread nD τ) (Pipeline.ucRefs τ sig) (W1 m c) : sProp 𝕄)
      ⊢ (dat1 (V1 m) c).arrays ((dat1 (V1 m) c).arrAt · 0) := by
  rw [held_eq, arrays1_eq]
  iintro ⟨H0, H1, H2, H3, H4⟩
  ihave H3' := (pointsTo_share (PosShare.mem_left_op_right fullShare)).1 $$ H3
  icases H3' with ⟨H3l, H3r⟩
  isplitl [H1]; · iexact H1
  isplitl [H0]; · iexact H0
  isplitl [H3l]; · iexact H3l
  isplitl [H3r]; · iexact H3r
  isplitl [H2]; · iexact H2
  iexact H4

/-- EXIT of the aggregation pass, the arrays' part: its arrays at their final contents — every input as the pass found
    it, so the two halves of the inverse root degrees hold the same contents and join; the result at what the
    write-backs leave — are the core's unscoped buffers at the return's contents. -/
theorem held_of_arrays1 (c : Dev nD) :
    ((dat1 (V1 m) c).arrays ((dat1 (V1 m) c).arrAt · cfg1.N) : sProp 𝕄)
      ⊢ StableHlo.held (c : Thread nD τ) (Pipeline.ucRefs τ sig) (W2 m c) := by
  rw [held_eq, arrays1_eq,
    (dat1 (V1 m) c).arrAt_in 0 rfl, (dat1 (V1 m) c).arrAt_in 1 rfl, (dat1 (V1 m) c).arrAt_in 2 rfl,
    (dat1 (V1 m) c).arrAt_in 3 rfl, (dat1 (V1 m) c).arrAt_in 4 rfl,
    show W2 m c main_arg0 = W1 m c main_arg0 from Function.update_of_ne (StableHlo.devRef_ne_of_ne (by decide)) _ _,
    show W2 m c main_arg1 = W1 m c main_arg1 from Function.update_of_ne (StableHlo.devRef_ne_of_ne (by decide)) _ _,
    show W2 m c main_arg2 = W1 m c main_arg2 from Function.update_of_ne (StableHlo.devRef_ne_of_ne (by decide)) _ _,
    show W2 m c main_v0 = W1 m c main_v0 from Function.update_of_ne (StableHlo.devRef_ne_of_ne (by decide)) _ _,
    show W2 m c main_v1 = (dat1 (V1 m) c).arrAt 5 cfg1.N from Function.update_self _ _ _]
  iintro ⟨H0, H1, H2, H3, H4, H5⟩
  isplitl [H1]; · iexact H1
  isplitl [H0]; · iexact H0
  isplitl [H4]; · iexact H4
  isplitl [H2 H3]
  · iapply (pointsTo_share (PosShare.mem_left_op_right fullShare)).2
    isplitl [H2]; · iexact H2
    iexact H3
  iexact H5

/-! ## The aggregation pass as a segment -/

set_option backward.isDefEq.respectTransparency.types false in
/-- The aggregation pass over the thread state: entered from every unscoped buffer at `W1`, left at `W2`. All five
    unscoped buffers are arrays of the pass, so nothing bypasses it; the generator register goes into the pass's
    invariant beside the scoped buffers it does not stage — the accumulator among them — and comes back; nothing is
    owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none]
    iintro ⟨⟨Hub, Hp, HO⟩, -, -⟩
    ihave Ha := (arrays_of_held1 m c) $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    refine BIBase.Entails.trans ?_ (hin1 (V1 m) c)
    unfold Pipeline.ΦA
    iintro ⟨Hp, -, Hr⟩
    isplitl [Hr]; · iexact Hr
    iexact Hp
  hout c := by
    rw [Pipeline.ownSems0_none]
    refine BIBase.Entails.trans (hout1 (V1 m) c) ?_
    unfold Pipeline.ΦA
    iintro ⟨Hr, Hp⟩
    isplitl [Hp]; · iexact Hp
    isplitr; · iempintro
    iexact Hr
  hexit c := by
    iintro ⟨Ha, HO, HY, -⟩
    imodintro
    isplitl [Ha HY]
    · isplitl [Ha]
      · iapply (held_of_arrays1 m c); iexact Ha
      iexact HY
    unfold Pipeline.Dat.owesAt Pipeline.owesWithin
    icases HO with ⟨%W, -, HO⟩; iexists W; iexact HO

/-! ## @main as segments, and the launch -/

/-- @main's two segments: the degree pass, then the aggregation pass. -/
abbrev segs : List (Pipeline.Seg (pcfgs (F := F)) adm (pdats m) () defs₀ 𝒱₀ L lv) :=
  [ .region (reg0 m), .region (reg1 m) ]
/-- @main is the run of the segments. -/
theorem main_run (c : Dev nD) : main (F := F) c = Pipeline.Seg.run (segs m) := (main_chain c).trans (by chain_rfl)

set_option backward.isDefEq.respectTransparency.types false in
/-- From any launch memory with every counter at zero, every weakly fair execution of @main terminates, nothing
    faulting, and any property of the final memory that follows from "every unscoped buffer holds the return's
    contents `W2`" holds of it. -/
theorem run_of {Q : PUnit × MemSt nD τ sig (Elt F) → Prop}
    (hQ : ∀ s : MemSt nD τ sig (Elt F), (∀ c : Dev nD, ∀ b ∈ Pipeline.ucRefs τ sig, s.mem ((c : Thread nD τ).1, b) = W2 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := hQ)

/-- THE RUN: @main terminates from any launch memory, and at the end every unscoped buffer holds the return's contents. -/
theorem run : θ_run defs (onTc (τ := τ) (main (F := F))) ⟨m, fun _ => 0, ρ⟩
    (fun r => ∀ c : Dev nD, ∀ b ∈ Pipeline.ucRefs τ sig, r.2.mem ((c : Thread nD τ).1, b) = W2 m c b) :=
  run_of m ρ fun s h => h

/-! ## The return's contents at the arguments and the result -/

theorem W2_main_arg0 (c : Dev nD) : W2 m c (Proc.devRef .tc main_arg0) = m ((c : Thread nD τ).loc main_arg0) :=
  (Function.update_of_ne (StableHlo.devRef_ne_of_ne (by decide)) _ _).trans (V1_main_arg0 m c)
theorem W2_main_arg1 (c : Dev nD) : W2 m c (Proc.devRef .tc main_arg1) = m ((c : Thread nD τ).loc main_arg1) :=
  (Function.update_of_ne (StableHlo.devRef_ne_of_ne (by decide)) _ _).trans (V1_main_arg1 m c)
theorem W2_main_arg2 (c : Dev nD) : W2 m c (Proc.devRef .tc main_arg2) = m ((c : Thread nD τ).loc main_arg2) :=
  (Function.update_of_ne (StableHlo.devRef_ne_of_ne (by decide)) _ _).trans (V1_main_arg2 m c)
theorem W2_main_v1 (c : Dev nD) : W2 m c (Proc.devRef .tc main_v1) = (dat1 (V1 m) c).arrAt 5 cfg1.N :=
  Function.update_self _ _ _

/-- THE FRAME: @main terminates and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ fun s h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩

/-- THE RESULT: moreover the result array ends at what the aggregation pass's write-backs leave, from the contents
    between the passes. -/
theorem run_value : θ_run defs (onTc (τ := τ) (main (F := F))) ⟨m, fun _ => 0, ρ⟩ (fun r => ∀ c : Dev nD,
      r.2.mem ((c.tc : Thread nD τ).loc main_v1) = (dat1 (V1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ fun s h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩

end Cert.KernelIdeal.Hand

end
-- ==== Proof.Spec.lean ====
/-
  The function both programs compute, on the extended reals.

  A graph-convolution layer over a dense adjacency matrix `A` (n × n), node features `x` (n × k) and a
  weight matrix `W` (k × k'): every node's degree is its row sum of `A + I`; with `s i` the inverse square
  root of node `i`'s degree, the aggregated features are the rows of `D^(-1/2) (A + I) D^(-1/2) x`; these go
  through `W`, the rectifier, and a division of every row by its Euclidean norm, floored at a small `ε`.

  The two programs spell the aggregation differently. One scales the columns first, adds the node's own scaled
  feature row, and scales the row last (`aggK`); the other scales `A + I` on both sides and multiplies once
  (`aggR`). Everything downstream of the aggregation is the same row-wise function (`tailRow`).
-/
import Idealize.ShloMosaic.PureOps.Ideal

noncomputable section

namespace Cert.Spec

open Idealize.ShloMosaic
open scoped BigOperators

/-- One over the square root of a degree, with the extended reals' conventions: `0` below zero (the root is `⊥`,
    whose inverse is `0`), `⊤` at zero, the positive real `1/√d` above. -/
def dinv (d : EReal) : EReal := Ideal.div 1 (Ideal.sqrt d)

/-- A node's degree as a row sum of `A`, plus one for the self loop. -/
def degK {ι : Type} [Fintype ι] (A : ι → ι → EReal) (i : ι) : EReal := (∑ j, A i j) + 1

/-- The same degree as the row sum of `A + I`. -/
def degR {ι : Type} [Fintype ι] [DecidableEq ι] (A : ι → ι → EReal) (i : ι) : EReal :=
  ∑ j, (A i j + if i = j then 1 else 0)

/-- Row `i` of the aggregation, columns scaled first: `s i · (s i · x i + ∑ c, A i c · (s c · x c))`. -/
def aggK {ι κ : Type} [Fintype ι] (s : ι → EReal) (A : ι → ι → EReal) (x : ι → κ → EReal) (i : ι) (f : κ) : EReal :=
  s i * (s i * x i f + ∑ c, A i c * (s c * x c f))

/-- Row `i` of the aggregation through the normalised matrix: `∑ j, ((s i · (A + I) i j) · s j) · x j`. -/
def aggR {ι κ : Type} [Fintype ι] [DecidableEq ι] (s : ι → EReal) (A : ι → ι → EReal) (x : ι → κ → EReal) (i : ι) (f : κ) :
    EReal :=
  ∑ j, ((s i * (A i j + if i = j then 1 else 0)) * s j) * x j f

/-- One aggregated row through the weights and the rectifier. -/
def act {κ κ' : Type} [Fintype κ] (W : κ → κ' → EReal) (fa : κ → EReal) (g : κ') : EReal :=
  max (∑ f, fa f * W f g) 0

/-- One aggregated row to one output row: weights, rectifier, then every entry over the row's Euclidean norm
    floored at `ε`. -/
def tailRow {κ κ' : Type} [Fintype κ] [Fintype κ'] (W : κ → κ' → EReal) (ε : EReal) (fa : κ → EReal) (g : κ') : EReal :=
  Ideal.div (act W fa g) (max (Ideal.sqrt (∑ g', act W fa g' * act W fa g')) ε)

/-- The layer with the columns scaled first. -/
def outK {ι κ κ' : Type} [Fintype ι] [Fintype κ] [Fintype κ'] (x : ι → κ → EReal) (A : ι → ι → EReal)
    (W : κ → κ' → EReal) (ε : EReal) (i : ι) (g : κ') : EReal :=
  tailRow W ε (aggK (fun i => dinv (degK A i)) A x i) g

/-- The layer through the normalised matrix. -/
def outR {ι κ κ' : Type} [Fintype ι] [DecidableEq ι] [Fintype κ] [Fintype κ'] (x : ι → κ → EReal) (A : ι → ι → EReal)
    (W : κ → κ' → EReal) (ε : EReal) (i : ι) (g : κ') : EReal :=
  tailRow W ε (aggR (fun i => dinv (degR A i)) A x i) g

end Cert.Spec

end
-- ==== Proof.SpecLaws.lean ====
/-
  The algebra behind the two spellings of the aggregation, on the extended reals.

  The scale factor of a node, one over the square root of its degree, is either a nonnegative real or `⊤` (the
  degree zero). Multiplication by a nonnegative real distributes over every sum of extended reals, so in the first
  case the two aggregated rows are equal entry by entry. In the second case every entry of either row is `⊥`, `0`
  or `⊤`, and the normalised rectified row of such a row is zero whatever its entries are.
-/
import proofs.«159487_j53403623358621_2_alg».proof.Proof.Spec
import Mathlib.Tactic

noncomputable section

namespace Cert.Spec

open Idealize.ShloMosaic
open scoped BigOperators

/-! ### The two degrees -/

theorem degR_eq_degK {ι : Type} [Fintype ι] [DecidableEq ι] (A : ι → ι → EReal) (i : ι) : degR A i = degK A i := by
  unfold degR degK
  rw [Finset.sum_add_distrib, Finset.sum_ite_eq]
  simp

/-! ### The scale factor is a nonnegative real or `⊤` -/

theorem dinv_cases (d : EReal) : dinv d = ⊤ ∨ ∃ r : ℝ, 0 ≤ r ∧ dinv d = (r : EReal) := by
  unfold dinv
  induction d using EReal.rec with
  | bot => right; exact ⟨0, le_rfl, by simp [Ideal.div]⟩
  | top => right; exact ⟨0, le_rfl, by simp [Ideal.div]⟩
  | coe r =>
    rw [Ideal.sqrt_coe]
    by_cases hr : r < 0
    · right; exact ⟨0, le_rfl, by simp [hr, Ideal.div]⟩
    · rw [if_neg hr]
      by_cases h0 : Real.sqrt r = 0
      · left; simp [h0, Ideal.div]
      · right
        refine ⟨(Real.sqrt r)⁻¹, inv_nonneg.mpr (Real.sqrt_nonneg r), ?_⟩
        rw [Ideal.div_coe h0, one_mul, one_div]

/-! ### Multiplication by a nonnegative real distributes over every finite sum -/

theorem coe_nonneg_mul_sum {α : Type} (r : ℝ) (hr : 0 ≤ r) (s : Finset α) (u : α → EReal) :
    (r : EReal) * ∑ a ∈ s, u a = ∑ a ∈ s, (r : EReal) * u a := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- Where node `i`'s scale factor is a nonnegative real, and its own matrix and feature entries are real, the two
    aggregations agree at `(i, f)`: the real factor goes through the sum term by term; the terms of the other nodes
    only need reassociating (their scale factors may be `⊤`), and node `i`'s own term is an identity of reals. -/
theorem aggK_eq_aggR_of_real {ι κ : Type} [Fintype ι] [DecidableEq ι] (s : ι → EReal) (A : ι → ι → EReal)
    (x : ι → κ → EReal) (i : ι) (f : κ) (r a y : ℝ) (hr : 0 ≤ r) (hs : s i = (r : EReal)) (hA : A i i = (a : EReal))
    (hx : x i f = (y : EReal)) : aggK s A x i f = aggR s A x i f := by
  have hr' : (0 : EReal) ≤ (r : EReal) := EReal.coe_nonneg.mpr hr
  have hterm : ∀ j, ((s i * (A i j + if i = j then 1 else 0)) * s j) * x j f
      = (r : EReal) * (A i j * (s j * x j f)) + (if i = j then (r : EReal) * ((r : EReal) * x i f) else 0) := by
    intro j
    by_cases hij : i = j
    · subst hij
      rw [if_pos rfl, if_pos rfl, hs, hA, hx]
      norm_cast
      ring
    · rw [if_neg hij, if_neg hij, add_zero, add_zero, hs, mul_assoc, mul_assoc]
  unfold aggK aggR
  rw [Finset.sum_congr rfl fun j _ => hterm j, Finset.sum_add_distrib, Finset.sum_ite_eq,
    if_pos (Finset.mem_univ i), hs, EReal.left_distrib_of_nonneg_of_ne_top hr' (EReal.coe_ne_top r),
    coe_nonneg_mul_sum r hr, add_comm]

/-! ### Trivalent extended reals: `⊥`, `0` or `⊤` -/

/-- An extended real that is `⊥`, `0` or `⊤`. -/
def Tri (z : EReal) : Prop := z = ⊥ ∨ z = 0 ∨ z = ⊤

theorem tri_top_mul (y : EReal) : Tri (⊤ * y) := by
  rcases lt_trichotomy y 0 with h | h | h
  · left; exact EReal.top_mul_of_neg h
  · right; left; rw [h, mul_zero]
  · right; right; exact EReal.top_mul_of_pos h

theorem tri_bot_mul (y : EReal) : Tri (⊥ * y) := by
  rcases lt_trichotomy y 0 with h | h | h
  · right; right; exact EReal.bot_mul_of_neg h
  · right; left; rw [h, mul_zero]
  · left; exact EReal.bot_mul_of_pos h

theorem Tri.mul_right {a : EReal} (ha : Tri a) (y : EReal) : Tri (a * y) := by
  rcases ha with rfl | rfl | rfl
  · exact tri_bot_mul y
  · right; left; exact zero_mul y
  · exact tri_top_mul y

theorem Tri.add {a b : EReal} (ha : Tri a) (hb : Tri b) : Tri (a + b) := by
  rcases ha with rfl | rfl | rfl <;> rcases hb with rfl | rfl | rfl <;> simp [Tri]

theorem tri_sum {α : Type} (s : Finset α) (u : α → EReal) (h : ∀ a ∈ s, Tri (u a)) : Tri (∑ a ∈ s, u a) := by
  classical
  induction s using Finset.induction_on with
  | empty => right; left; simp
  | insert a s ha ih =>
    rw [Finset.sum_insert ha]
    exact (h a (Finset.mem_insert_self a s)).add (ih fun b hb => h b (Finset.mem_insert_of_mem hb))

/-! ### `0` or `⊤`: what the rectifier leaves of a trivalent value -/

/-- An extended real that is `0` or `⊤`. -/
def Bi (z : EReal) : Prop := z = 0 ∨ z = ⊤

theorem Tri.max_zero {a : EReal} (ha : Tri a) : Bi (max a 0) := by
  rcases ha with rfl | rfl | rfl
  · left; simp
  · left; simp
  · right; simp

theorem Bi.mul_self {a : EReal} (ha : Bi a) : Bi (a * a) := by
  rcases ha with rfl | rfl
  · left; simp
  · right; simp

theorem Bi.nonneg {a : EReal} (ha : Bi a) : 0 ≤ a := by
  rcases ha with rfl | rfl
  · exact le_rfl
  · exact le_top

theorem Bi.add {a b : EReal} (ha : Bi a) (hb : Bi b) : Bi (a + b) := by
  rcases ha with rfl | rfl <;> rcases hb with rfl | rfl <;> simp [Bi]

theorem bi_sum {α : Type} (s : Finset α) (u : α → EReal) (h : ∀ a ∈ s, Bi (u a)) : Bi (∑ a ∈ s, u a) := by
  classical
  induction s using Finset.induction_on with
  | empty => left; simp
  | insert a s ha ih =>
    rw [Finset.sum_insert ha]
    exact (h a (Finset.mem_insert_self a s)).add (ih fun b hb => h b (Finset.mem_insert_of_mem hb))

/-- One infinite term makes the whole sum infinite, there being nothing negative to cancel it. -/
theorem bi_sum_eq_top {α : Type} (s : Finset α) (u : α → EReal) (h : ∀ a ∈ s, Bi (u a)) {g : α} (hg : g ∈ s)
    (hgt : u g = ⊤) : ∑ a ∈ s, u a = ⊤ := by
  have hle : u g ≤ ∑ a ∈ s, u a := Finset.single_le_sum (fun a ha => (h a ha).nonneg) hg
  rw [hgt] at hle
  exact top_le_iff.mp hle

/-! ### The normalised rectified row of a trivalent row is zero -/

/-- Through any weights a trivalent row stays trivalent, the rectifier leaves `0` or `⊤`, and so is the sum of the
    squares. If that sum is `⊤` the norm is `⊤` and every entry over it is `0`; if it is `0` every entry is `0`
    already, and the floor `ε` keeps the divisor away from zero. -/
theorem tailRow_of_tri {κ κ' : Type} [Fintype κ] [Fintype κ'] (W : κ → κ' → EReal) (ε : EReal) (fa : κ → EReal)
    (hfa : ∀ f, Tri (fa f)) (hε : ∃ e : ℝ, 0 < e ∧ ε = (e : EReal)) (g : κ') : tailRow W ε fa g = 0 := by
  obtain ⟨e, he, rfl⟩ := hε
  have hact : ∀ g', Bi (act W fa g') := fun g' =>
    (tri_sum Finset.univ _ fun f _ => (hfa f).mul_right (W f g')).max_zero
  have hsq : ∀ g', Bi (act W fa g' * act W fa g') := fun g' => (hact g').mul_self
  unfold tailRow
  rcases bi_sum Finset.univ _ (fun g' _ => hsq g') with hS | hS
  · have hg : act W fa g = 0 := by
      rcases hact g with h | h
      · exact h
      · exfalso
        have htop := bi_sum_eq_top Finset.univ _ (fun g' _ => hsq g') (Finset.mem_univ g) (by rw [h]; rfl)
        rw [hS] at htop
        exact EReal.zero_ne_top htop
    have he' : (0 : EReal) ≤ (e : EReal) := EReal.coe_nonneg.mpr he.le
    rw [hS, hg, ← EReal.coe_zero, Ideal.sqrt_coe, if_neg (lt_irrefl 0), Real.sqrt_zero, EReal.coe_zero,
      max_eq_right he', Ideal.div_coe he.ne', zero_mul]
  · rw [hS, Ideal.sqrt_top, max_eq_left le_top]
    simp [Ideal.div]

/-- Where node `i`'s scale factor is `⊤`, its aggregated row is trivalent in either spelling. -/
theorem tri_aggK_of_top {ι κ : Type} [Fintype ι] (s : ι → EReal) (A : ι → ι → EReal) (x : ι → κ → EReal) (i : ι) (f : κ)
    (hs : s i = ⊤) : Tri (aggK s A x i f) := by
  unfold aggK
  rw [hs]
  exact tri_top_mul _

theorem tri_aggR_of_top {ι κ : Type} [Fintype ι] [DecidableEq ι] (s : ι → EReal) (A : ι → ι → EReal) (x : ι → κ → EReal)
    (i : ι) (f : κ) (hs : s i = ⊤) : Tri (aggR s A x i f) := by
  unfold aggR
  rw [hs]
  exact tri_sum _ _ fun j _ => ((tri_top_mul _).mul_right _).mul_right _

/-! ### The two layers agree -/

theorem outK_eq_outR {ι κ κ' : Type} [Fintype ι] [DecidableEq ι] [Fintype κ] [Fintype κ']
    (x : ι → κ → EReal) (A : ι → ι → EReal) (W : κ → κ' → EReal) (ε : EReal)
    (hx : ∀ i f, ∃ r : ℝ, x i f = (r : EReal)) (hA : ∀ i j, ∃ r : ℝ, A i j = (r : EReal))
    (hW : ∀ f g, ∃ r : ℝ, W f g = (r : EReal)) (hε : ∃ e : ℝ, 0 < e ∧ ε = (e : EReal)) (i : ι) (g : κ') :
    outK x A W ε i g = outR x A W ε i g := by
  have hdeg : (fun i => dinv (degR A i)) = fun i => dinv (degK A i) := funext fun j => by rw [degR_eq_degK]
  unfold outK outR
  rw [hdeg]
  rcases dinv_cases (degK A i) with htop | ⟨r, hr, hsr⟩
  · rw [tailRow_of_tri W ε _ (fun f => tri_aggK_of_top (fun i => dinv (degK A i)) A x i f htop) hε g,
      tailRow_of_tri W ε _ (fun f => tri_aggR_of_top (fun i => dinv (degK A i)) A x i f htop) hε g]
  · have hrow : aggK (fun i => dinv (degK A i)) A x i = aggR (fun i => dinv (degK A i)) A x i := funext fun f => by
      obtain ⟨a, ha⟩ := hA i i
      obtain ⟨y, hy⟩ := hx i f
      exact aggK_eq_aggR_of_real _ A x i f r a y hr hsr ha hy
    rw [hrow]

/-! ### Two float literals as extended reals -/

/-- The pattern `0x3F800000`: sign 0, exponent field 127 (the bias), fraction 0, that is `2^23 · 2^(-23) = 1`. -/
theorem one_f32 : Ideal.ofBits .f32 0x3F800000#32 = (1 : EReal) := by
  have h : ((8388608 : ℝ) : EReal) * (((2 : ℝ) ^ 23)⁻¹ : ℝ) = 1 := by
    rw [← EReal.coe_mul, ← EReal.coe_one]
    congr 1
    norm_num
  simpa [Ideal.ofBits, Ideal.ieee] using h

/-- The pattern `0x2B8CBCCC`: sign 0, exponent field 87, fraction `0x0CBCCC`, that is the positive real
    `(2^23 + 834764) · 2^(87 - 127 - 23) = 9223372 · 2^(-63)`, about `1e-12`. -/
theorem eps_f32 : ∃ e : ℝ, 0 < e ∧ Ideal.ofBits .f32 0x2B8CBCCC#32 = (e : EReal) := by
  refine ⟨9223372 * ((2 : ℝ) ^ 63)⁻¹, by positivity, ?_⟩
  simp [Ideal.ofBits, Ideal.ieee]

end Cert.Spec

end
-- ==== Proof.KI.PayloadsIdeal.lean ====
/-
  The kernels' arithmetic read at an index on the extended reals.

  Each stored value of the two passes is a chain of pointwise operations around a few operations that move or combine
  entries: a column [n, 1] spread along a second axis, a vector [n] recast as a column, a sum along the second axis,
  and a matrix product into zero. Each of the latter is read once at (p, q); the pointwise operations then read
  entry by entry, and the stored values come out as the specification's functions of the entries read.
-/
import proofs.«159487_j53403623358621_2_alg».proof.Proof.Gen.KernelIdeal.Skeleton
import proofs.«159487_j53403623358621_2_alg».proof.Proof.Spec
import proofs.«159487_j53403623358621_2_alg».proof.Proof.SpecLaws
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

namespace Payload

/-! ### Layout operations read at (p, q) -/

section Layout
variable {α : Type}

/-- A column [n, 1] broadcast along a second axis of extent b reads, at (p, q), the column's entry p. -/
theorem broadcastCol_apply {n b : Nat} (hn : n ≠ 1) (x : (⟨2, ![n, 1]⟩ : Shape).Idx → α)
    (h : (⟨2, ![n, 1]⟩ : Shape).Broadcasts ⟨2, ![n, b]⟩) (p : Fin n) (q : Fin b) :
    broadcastTo ⟨2, ![n, b]⟩ x h (ix2 p q) = x (ix2 p (0 : Fin 1)) := by
  refine broadcastTo_apply x h (ix2 p q) (ix2 p (0 : Fin 1)) fun a => ?_
  match a with
  | ⟨0, _⟩ =>
    show p.val = if n = 1 then 0 else p.val
    rw [if_neg hn]
  | ⟨1, _⟩ => rfl

/-- A vector [n] recast as a column [n, 1] reads, at (p, 0), the vector's entry p. -/
theorem castCol_apply {n : Nat} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Layout

/-! ### Pointwise root, and the two lane sums -/

/-- The pointwise square root read at an index. -/
theorem sqrt_apply {s : Shape} {φ : FTy} (a : FVec Ideal s φ) (i : s.Idx) : sqrt a i = Ideal.sqrt (a i) := rfl

/-- The sum over the second axis of a [256, 16384] array, started from the zero word, read at row p. -/
theorem rowSumAdj_apply (src : FVec Ideal S256x16384 .f32) (hφ : FKind.Formats .f32)
    (hacc : (0x00000000#32 : BitVec 32) = 0x00000000#32) (p : Fin 256) :
    multiReduction .add [1] S256 src 0x00000000#32 reduces_S256x16384_S256 hφ hacc (ix1 p)
      = ∑ k : Fin 16384, src (ix2 p k) := by
  refine (Ideal.multiReduction_add_single src 0x00000000#32 reduces_S256x16384_S256 hφ hacc (ix1 p)).trans ?_
  show ∑ k : Fin 16384, src (reduces_S256x16384_S256.lift (ix1 p) k) = _
  refine Finset.sum_congr rfl fun k _ => congrArg src (funext fun a => Fin.ext ?_)
  match a with
  | ⟨0, _⟩ => rfl
  | ⟨1, _⟩ => rfl

/-- The sum over the second axis of a [1024, 256] array, started from the zero word, read at row p. -/
theorem rowSumOut_apply (src : FVec Ideal S1024x256 .f32) (hφ : FKind.Formats .f32)
    (hacc : (0x00000000#32 : BitVec 32) = 0x00000000#32) (p : Fin 1024) :
    multiReduction .add [1] S1024 src 0x00000000#32 reduces_S1024x256_S1024 hφ hacc (ix1 p)
      = ∑ k : Fin 256, src (ix2 p k) := by
  refine (Ideal.multiReduction_add_single src 0x00000000#32 reduces_S1024x256_S1024 hφ hacc (ix1 p)).trans ?_
  show ∑ k : Fin 256, src (reduces_S1024x256_S1024.lift (ix1 p) k) = _
  refine Finset.sum_congr rfl fun k _ => congrArg src (funext fun a => Fin.ext ?_)
  match a with
  | ⟨0, _⟩ => rfl
  | ⟨1, _⟩ => rfl

/-! ### The two matrix products read at (p, q) -/

theorem matmulTile_lhs0 (i : S1024x256.Idx) (c : dot_S1024x1024_S1024x256_S1024x256_1_0_0_1_n_n.contr.Idx) : (dot_S1024x1024_S1024x256_S1024x256_1_0_0_1_n_n.lhsIdx i c 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl

theorem matmulTile_rhs1 (i : S1024x256.Idx) (c : dot_S1024x1024_S1024x256_S1024x256_1_0_0_1_n_n.contr.Idx) : (dot_S1024x1024_S1024x256_S1024x256_1_0_0_1_n_n.rhsIdx i c 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- The tile product: a [1024, 1024] left operand against a [1024, 256] right operand into zero is, at (p, q),
    the sum over the shared axis of the products. -/
theorem matmulTile_apply (lhs : FVec Ideal S1024x1024 .bf16) (rhs : FVec Ideal S1024x256 .bf16) (p : Fin 1024) (q : Fin 256) :
    matmul dot_S1024x1024_S1024x256_S1024x256_1_0_0_1_n_n none lhs rhs (constant (F := Ideal) S1024x256 .f32 0x00000000#32) (ix2 p q)
      = ∑ k : Fin 1024, lhs (ix2 p k) * rhs (ix2 k q) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p q) ((contrEquiv1 dot_S1024x1024_S1024x256_S1024x256_1_0_0_1_n_n 1024 rfl rfl).symm k) = ix2 p k :=
    funext fun a => Fin.ext (by
      match a with
      | ⟨0, _⟩ => exact matmulTile_lhs0 _ _
      | ⟨1, _⟩ => exact (dot_S1024x1024_S1024x256_S1024x256_1_0_0_1_n_n.lhsIdx_val_of_single rfl (ix2 p q) _).trans hk)
  have er : dot_S1024x1024_S1024x256_S1024x256_1_0_0_1_n_n.rhsIdx (ix2 p q) ((contrEquiv1 dot_S1024x1024_S1024x256_S1024x256_1_0_0_1_n_n 1024 rfl rfl).symm k) = ix2 k q :=
    funext fun a => Fin.ext (by
      match a with
      | ⟨0, _⟩ => exact (dot_S1024x1024_S1024x256_S1024x256_1_0_0_1_n_n.rhsIdx_val_of_single rfl (ix2 p q) _).trans hk
      | ⟨1, _⟩ => exact matmulTile_rhs1 _ _)
  rw [el, er]

theorem matmulWeights_lhs0 (i : S1024x256.Idx) (c : dot_S1024x256_S256x256_S1024x256_1_0_0_1_n_n.contr.Idx) : (dot_S1024x256_S256x256_S1024x256_1_0_0_1_n_n.lhsIdx i c 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl

theorem matmulWeights_rhs1 (i : S1024x256.Idx) (c : dot_S1024x256_S256x256_S1024x256_1_0_0_1_n_n.contr.Idx) : (dot_S1024x256_S256x256_S1024x256_1_0_0_1_n_n.rhsIdx i c 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The weight product: a [1024, 256] left operand against the [256, 256] weights into zero is, at (p, q),
    the sum over the feature axis of the products. -/
theorem matmulWeights_apply (lhs : FVec Ideal S1024x256 .bf16) (rhs : FVec Ideal S256x256 .bf16) (p : Fin 1024) (q : Fin 256) :
    matmul dot_S1024x256_S256x256_S1024x256_1_0_0_1_n_n none lhs rhs (constant (F := Ideal) S1024x256 .f32 0x00000000#32) (ix2 p q)
      = ∑ k : Fin 256, lhs (ix2 p k) * rhs (ix2 k q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k :=
    funext fun a => Fin.ext (by
      match a with
      | ⟨0, _⟩ => exact matmulWeights_lhs0 _ _
      | ⟨1, _⟩ => exact (dot_S1024x256_S256x256_S1024x256_1_0_0_1_n_n.lhsIdx_val_of_single rfl (ix2 p q) _).trans hk)
  have er : dot_S1024x256_S256x256_S1024x256_1_0_0_1_n_n.rhsIdx (ix2 p q) ((contrEquiv1 dot_S1024x256_S256x256_S1024x256_1_0_0_1_n_n 256 rfl rfl).symm k) = ix2 k q :=
    funext fun a => Fin.ext (by
      match a with
      | ⟨0, _⟩ => exact (dot_S1024x256_S256x256_S1024x256_1_0_0_1_n_n.rhsIdx_val_of_single rfl (ix2 p q) _).trans hk
      | ⟨1, _⟩ => exact matmulWeights_rhs1 _ _)
  rw [el, er]

/-! ### The output pass: the rectified weighted row, then the row over its floored norm -/

/-- The rectified product at (p, g): the scaled accumulator row p against column g of the weights, floored at zero. -/
theorem rectified_apply (v25 : Vec Ideal S1024x1 .f32) (v27 : Vec Ideal S1024x256 .f32) (v31 : Vec Ideal S256x256 .f32)
    (h1 : S1024x1.ShapeCasts S1024x1) (h2 : S1024x1.Broadcasts S1024x256) (hb : FTy.bits .bf16 < FTy.bits .f32)
    (p : Fin 1024) (g : Fin 256) :
    maximumf
        (matmul dot_S1024x256_S256x256_S1024x256_1_0_0_1_n_n none
          (truncf .bf16 (mulf (broadcastTo S1024x256 (shapeCast S1024x1 v25 h1) h2) v27) hb) (truncf .bf16 v31 hb)
          (constant (F := Ideal) S1024x256 .f32 0x00000000#32))
        (broadcast S1024x256 (Scalar.ofBits (F := Ideal) .f32 0x00000000#32)) (ix2 p g)
      = Cert.Spec.act (fun (f g : Fin 256) => v31 (ix2 f g)) (fun f : Fin 256 => v25 (ix2 p (0 : Fin 1)) * v27 (ix2 p f)) g := by
  rw [maximumf_apply, broadcast_apply, matmulWeights_apply]
  show max (∑ k : Fin 256, _) (Ideal.ofBits .f32 0x00000000#32) = _
  rw [Ideal.ofBits_zero_f32]
  unfold Cert.Spec.act
  refine congrArg (max · 0) (Finset.sum_congr rfl fun k _ => ?_)
  rw [truncf_apply, truncf_apply, mulf_apply, broadcastCol_apply (by decide), shapeCast_self]

end Payload

open Payload

/-! ### The four stored values -/

/-- The degree pass's stored value at row `p`: one over the root of the row's sum plus one. -/
theorem pay0_apply (v0 : Vec Ideal S256x16384 .f32) (p : Fin 256) :
    k0_pay1 (F := Ideal) v0 (ix2 p (0 : Fin 1)) = Cert.Spec.dinv ((∑ k : Fin 16384, v0 (ix2 p k)) + 1) := by
  unfold k0_pay1
  rw [divf_apply, broadcast_apply, sqrt_apply, addf_apply, broadcast_apply, castCol_apply, rowSumAdj_apply]
  show Ideal.div (Ideal.ofBits .f32 0x3F800000#32) (Ideal.sqrt (_ + Ideal.ofBits .f32 0x3F800000#32)) = _
  rw [Cert.Spec.one_f32]
  rfl

/-- The reset value at (p, q): the row's scale times its feature. -/
theorem pay1_apply (v26 : Vec Ideal S1024x256 .f32) (v27 : Vec Ideal S1024x1 .f32) (p : Fin 1024) (q : Fin 256) :
    k1_pay1 (F := Ideal) v26 v27 (ix2 p q) = v27 (ix2 p (0 : Fin 1)) * v26 (ix2 p q) := by
  unfold k1_pay1
  rw [shapeCast_self, mulf_apply, shapeCast_self]
  rw [broadcastCol_apply (by decide)]

/-- One accumulation step at (p, q): what was there plus the tile's row against the scaled feature column. -/
theorem pay2_apply (v8 : Vec Ideal S1024x256 .f32) (v9 : Vec Ideal S1024x1 .f32) (v14 : Vec Ideal S1024x1024 .f32)
    (v16 : Vec Ideal S1024x256 .f32) (p : Fin 1024) (q : Fin 256) :
    k1_pay2 (F := Ideal) v8 v9 v14 v16 (ix2 p q)
      = v16 (ix2 p q) + ∑ k : Fin 1024, v14 (ix2 p k) * (v9 (ix2 k (0 : Fin 1)) * v8 (ix2 k q)) := by
  unfold k1_pay2
  rw [shapeCast_self, addf_apply, matmulTile_apply]
  refine congrArg (v16 (ix2 p q) + ·) (Finset.sum_congr rfl fun k _ => ?_)
  rw [truncf_apply, truncf_apply, mulf_apply, broadcastCol_apply (by decide), shapeCast_self]

/-- The stored output at (p, q): the tail of the accumulator's row `p` scaled by the row's scale. -/
theorem pay3_apply (v25 : Vec Ideal S1024x1 .f32) (v27 : Vec Ideal S1024x256 .f32) (v31 : Vec Ideal S256x256 .f32)
    (p : Fin 1024) (q : Fin 256) :
    k1_pay3 (F := Ideal) v25 v27 v31 (ix2 p q)
      = Cert.Spec.tailRow (fun (f g : Fin 256) => v31 (ix2 f g)) (Ideal.ofBits .f32 0x2B8CBCCC#32)
          (fun f : Fin 256 => v25 (ix2 p (0 : Fin 1)) * v27 (ix2 p f)) q := by
  unfold k1_pay3
  rw [divf_apply, rectified_apply, broadcastCol_apply (by decide), maximumf_apply, broadcast_apply, sqrt_apply,
    castCol_apply, rowSumOut_apply]
  unfold Cert.Spec.tailRow
  refine congrArg (fun z => Ideal.div _ (max (Ideal.sqrt z) _)) (Finset.sum_congr rfl fun g _ => ?_)
  rw [mulf_apply, rectified_apply]

end Cert.KernelIdeal.Hand

end
-- ==== Proof.KI.Value0.lean ====
/-
  The degree pass, from blocks to the whole array, on the extended reals. Point `t` of the 64 writes rows
  `256·t … 256·t + 255` of the array of inverse root degrees, each from the matching whole row of the adjacency
  matrix; the 64 row blocks tile the array, so after the pass the array is, row by row, one over the root of the
  adjacency row's sum plus one.
-/
import proofs.«159487_j53403623358621_2_alg».proof.Proof.KI.Region0
import proofs.«159487_j53403623358621_2_alg».proof.Proof.KI.PayloadsIdeal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

section Value0
variable (V : (c : Dev nD) → (b : Ref sig .tc) → Buf (Elt Ideal) ((c : Thread nD τ).loc b))

theorem zero_off2 : (![0, 0] : Fin 2 → Nat) = fun _ => 0 := funext fun a => by fin_cases a <;> rfl

/-- The array of inverse root degrees as one function of the adjacency matrix. -/
def invRootDeg (A : S16384x16384.Idx → EReal) : S16384x1.Idx → EReal :=
  fun j => Cert.Spec.dinv (Cert.Spec.degK (fun (i k : Fin 16384) => A (ix2 i k)) (j 0))

/-- What the body stores at row `p` of its block, for any contents of the input block. -/
theorem out0_1_apply (x0 : Vec Ideal S256x16384 .f32) (p : Fin 256) :
    out0_1 (F := Ideal) x0 (ix2 p (0 : Fin 1)) = Cert.Spec.dinv ((∑ k : Fin 16384, x0 (ix2 p k)) + 1) := by
  unfold out0_1
  rw [View.canon_unit_zero zero_off2]
  simp only [View.ld_unit_zero (S := S256x16384) zero_off2]
  exact pay0_apply x0 p

/-- The printed index maps over the grid: both windows sit at row block `t`, column block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

set_option maxRecDepth 200000 in
/-- What point `t` writes back is block `t` of the inverse root degrees of the adjacency matrix the pass finds. -/
theorem flushed0_1_eq (c : Dev nD) (t : Fin cfg0.N) :
    (dat0 (F := Ideal) V c).flushed 1 t = ((cfg0.win 1).blk t).view.read (Elt Ideal) (invRootDeg (V c main_arg1)) := by
  show (cfg0.win 1).cut (grid0.coords t) ((dat0 V c).after 1 t) = _
  rw [after0_1]
  obtain ⟨e0, e1, e2, e3⟩ := idx_facts0 t
  funext y
  have h1 : (cfg0.win 1).cut (grid0.coords t) (out0_1 (iblk0 V c 0 t)) y = out0_1 (iblk0 V c 0 t) y := by
    first | rfl | fail "h1 not rfl"
  have h2 : View.read (Elt Ideal) ((cfg0.win 1).blk t).view (invRootDeg (V c main_arg1)) y = invRootDeg (V c main_arg1) (((cfg0.win 1).blk t).view.emb y) := by
    first | rfl | fail "h2 not rfl"
  rw [h1, h2]
  obtain ⟨p, q, rfl⟩ : ∃ (p : Fin 256) (q : Fin 1), y = ix2 p q := ⟨y 0, y 1, eq_ix2 y⟩
  have hq : q = 0 := Subsingleton.elim _ _
  subst hq
  refine (out0_1_apply (iblk0 V c 0 t) p).trans ?_
  unfold invRootDeg Cert.Spec.degK
  refine congrArg (fun s : EReal => Cert.Spec.dinv (s + 1)) (Finset.sum_congr rfl fun k _ => ?_)
  show V c main_arg1 (((cfg0.win 0).blk t).view.emb (ix2 p k)) = V c main_arg1 (ix2 ((((cfg0.win 1).blk t).view.emb (ix2 p (0 : Fin 1))) 0) k)
  refine congrArg (V c main_arg1) (funext fun a => Fin.ext ?_)
  match a with
  | ⟨0, _⟩ => show win0_0.index t (0 : Fin 2) * 256 + 1 * p.val = win0_1.index t (0 : Fin 2) * 256 + 1 * p.val; omega
  | ⟨1, _⟩ => show win0_0.index t (1 : Fin 2) * 16384 + 1 * k.val = k.val; omega

/-- An index of the array lies in point `t`'s block iff each coordinate lies in the block's range on its axis. -/
theorem mem_blk0_1 (t : Fin cfg0.N) (i : S16384x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v0).slice (win0_1.rect t)).set ↔ _
  rw [View.set_slice_whole, Rect.mem_set_unit]
  exact Iff.rfl

/-- Row `r` of the array lies in the block of point `r / 256`, which writes its block back. -/
theorem cover0_1_arr (i : S16384x1.Idx) : ∃ t : Fin cfg0.N, (cfg0.win 1).flush t = true ∧ i ∈ ((cfg0.win 1).blk t).view.set := by
  have hN : cfg0.N = 64 := N_0
  have hi0 : (i 0).val < 16384 := (i 0).isLt
  have hi1 : (i 1).val < 1 := (i 1).isLt
  refine ⟨⟨(i 0).val / 256, by rw [hN]; omega⟩, flush0_1 _, ?_⟩
  rw [mem_blk0_1]
  obtain ⟨e0, e1, e2, e3⟩ := idx_facts0 ⟨(i 0).val / 256, by rw [hN]; omega⟩
  intro a
  match a with
  | ⟨0, _⟩ =>
    show win0_1.index _ (0 : Fin 2) * 256 ≤ (i 0).val ∧ (i 0).val < win0_1.index _ (0 : Fin 2) * 256 + 256
    rw [e2]; show (i 0).val / 256 * 256 ≤ (i 0).val ∧ (i 0).val < (i 0).val / 256 * 256 + 256; omega
  | ⟨1, _⟩ =>
    show win0_1.index _ (1 : Fin 2) * 1 ≤ (i 1).val ∧ (i 1).val < win0_1.index _ (1 : Fin 2) * 1 + 1
    rw [e3]; omega

/-- After the degree pass the array of inverse root degrees holds, at row `j`, one over the root of the adjacency
    row's sum plus one. -/
theorem value0 (c : Dev nD) (j : S16384x1.Idx) :
    (dat0 (F := Ideal) V c).arrAt 1 cfg0.N j
      = Cert.Spec.dinv (Cert.Spec.degK (fun (i k : Fin 16384) => V c main_arg1 (ix2 i k)) (j 0)) :=
  congrFun ((dat0 (F := Ideal) V c).arrAt_eq_of_cover 1 (invRootDeg (V c main_arg1)) (fun t _ => flushed0_1_eq V c t)
    cover0_1_arr) j

end Value0

end Cert.KernelIdeal.Hand

end
-- ==== Proof.KI.Pieces1.lean ====
/-
  What the aggregation pass's accumulator and output buffer hold after each grid point, through the body's named
  arithmetic. Each case's stores are whole-buffer stores, so what a buffer holds afterwards is its last store's
  payload; every load but the two 1024-row slices of the resident feature buffer reads a whole buffer; and a load
  of the accumulator after a store into it reads that store's payload back. So: at a first column block the
  accumulator ends at the reset value (the row block's scaled features) plus the tile's product; at any later
  column block at what the point before left plus the tile's product; and at a last column block the output buffer
  ends at the final arithmetic applied to the accumulator just completed.
-/
import proofs.«159487_j53403623358621_2_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 1024 rows of the resident feature buffer the reset reads (the row block's own) and the accumulation reads
    (the column block's). -/
abbrev rOff1 (i : grid1.Coords) (h : cond1_0 i) : Rect S16384x256 := Rect.unit (s := S16384x256) (k1_off1 i) S1024x256.size (k1_off1_inb i h)
abbrev rOff2 (i : grid1.Coords) : Rect S16384x256 := Rect.unit (s := S16384x256) (k1_off2 i) S1024x256.size (k1_off2_inb i)

/-- The whole-buffer rectangles start at offset zero on both axes. -/
theorem pieces1_off_zero : (![0, 0] : Fin 2 → Nat) = fun _ => 0 := funext fun a => by fin_cases a <;> rfl

/-! ## The three cases, on any whole buffers -/

/-- A middle column block leaves the accumulator at what it held plus the tile's product: its one store's payload,
    whose loads read whole buffers but for the slice of the feature buffer. -/
theorem sout1_B_eq (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) :
    sout1_B_0 c i arg2 harg2 arg3 harg3 arg4 harg4 arg5 harg5 arg6 harg6 arg7 harg7 arg8 harg8 hc0 hc1 x0 x1 x2 x3 x4 xs0 = k1_pay2 (View.ld x1 (rOff2 i)) x3 x0 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  rw [View.canon_unit_zero pieces1_off_zero]
  simp only [View.readAt_eq_ld, harg2.read_unread, harg3.read_unread, harg5.read_unread, harg8.read_unread,
    View.ld_unit_zero (S := S1024x1) pieces1_off_zero, View.ld_unit_zero (S := S1024x1024) pieces1_off_zero,
    View.ld_unit_zero (S := S1024x256) pieces1_off_zero, View.ld_unit_zero (S := S256x256) pieces1_off_zero]

/-- A last column block leaves the accumulator at the same. -/
theorem sout1_C_eq (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) :
    sout1_C_0 c i arg2 harg2 arg3 harg3 arg4 harg4 arg5 harg5 arg6 harg6 arg7 harg7 arg8 harg8 hc0 hc1 x0 x1 x2 x3 x4 xs0 = k1_pay2 (View.ld x1 (rOff2 i)) x3 x0 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero pieces1_off_zero]
  simp only [View.readAt_eq_ld, harg2.read_unread, harg3.read_unread, harg5.read_unread, harg8.read_unread,
    View.ld_unit_zero (S := S1024x1) pieces1_off_zero, View.ld_unit_zero (S := S1024x1024) pieces1_off_zero,
    View.ld_unit_zero (S := S1024x256) pieces1_off_zero, View.ld_unit_zero (S := S256x256) pieces1_off_zero]
  rfl

/-- A last column block leaves the output buffer at the final arithmetic of the row scales, the accumulator just
    completed (the store into it read back) and the weights. -/
theorem out1_C_eq (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .f32) (x1 : Vec F S16384x256 .f32) (x2 : Vec F S1024x1 .f32) (x3 : Vec F S1024x1 .f32) (x4 : Vec F S256x256 .f32) (xs0 : Vec F S1024x256 .f32) :
    out1_C_5 c i arg2 harg2 arg3 harg3 arg4 harg4 arg5 harg5 arg6 harg6 arg7 harg7 arg8 harg8 hc0 hc1 x0 x1 x2 x3 x4 xs0 = k1_pay3 x2 (k1_pay2 (View.ld x1 (rOff2 i)) x3 x0 xs0) x4 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero pieces1_off_zero, View.readCov_unit_zero (S := S1024x256) _ pieces1_off_zero]
  simp only [View.readAt_eq_ld, harg2.read_unread, harg3.read_unread, harg4.read_unread, harg5.read_unread, harg6.read_unread, harg8.read_unread,
    View.ld_unit_zero (S := S1024x1) pieces1_off_zero, View.ld_unit_zero (S := S1024x1024) pieces1_off_zero,
    View.ld_unit_zero (S := S1024x256) pieces1_off_zero, View.ld_unit_zero (S := S256x256) pieces1_off_zero]
  rfl

/-- A first column block leaves the accumulator at the reset value plus the tile's product: the second of its two
    stores, whose load of the accumulator reads the first one's payload back. -/
theorem sout1_A_eq (c : Dev nD) (i : grid1.Coords) (arg2 : Memref sig .tc .vmem S1024x1024 .f32) (harg2 : arg2.IsWhole) (arg3 : Memref sig .tc .vmem S16384x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x1024 .f32) (x1 : Vec F S16384x256 .f32) (x2 : Vec F S1024x1 .f32) (x3 : Vec F S1024x1 .f32) (x4 : Vec F S256x256 .f32) :
    sout1_A_0 c i arg2 harg2 arg3 harg3 arg4 harg4 arg5 harg5 arg6 harg6 arg7 harg7 arg8 harg8 hc0 hc1 x0 x1 x2 x3 x4 = k1_pay2 (View.ld x1 (rOff2 i)) x3 x0 (k1_pay1 (View.ld x1 (rOff1 i hc0)) x2) := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S1024x256) pieces1_off_zero, View.readCov_unit_zero (S := S1024x256) _ pieces1_off_zero]
  simp only [View.readAt_eq_ld, harg2.read_unread, harg3.read_unread, harg4.read_unread, harg5.read_unread,
    View.ld_unit_zero (S := S1024x1) pieces1_off_zero, View.ld_unit_zero (S := S1024x1024) pieces1_off_zero,
    View.ld_unit_zero (S := S1024x256) pieces1_off_zero, View.ld_unit_zero (S := S256x256) pieces1_off_zero]
  rfl

section Pieces1
variable (V : (c : Dev nD) → (b : Ref sig .tc) → Buf (Elt F) ((c : Thread nD τ).loc b))

/-- At a first column block the accumulator ends at the reset value plus the tile's product. -/
theorem acc_first (c : Dev nD) (t : Fin cfg1.N) (h0 : t.val % 16 = 0) :
    (outsAt1 V c t.val t.isLt).2
      = k1_pay2 (View.ld (iblk1 V c 1 t) (rOff2 (grid1.coords t))) (iblk1 V c 3 t) (iblk1 V c 0 t)
          (k1_pay1 (View.ld (iblk1 V c 1 t) (rOff1 (grid1.coords t) ((hcond1_0 t).mpr h0))) (iblk1 V c 2 t)) := by
  have h1 : ¬ t.val % 16 = 15 := by omega
  rw [outsAt1_A V c t h0 h1]; dsimp only
  exact sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)

/-- At any later column block it ends at what the point before left plus the tile's product. -/
theorem acc_next (c : Dev nD) (t : Fin cfg1.N) (h0 : ¬ t.val % 16 = 0) :
    (outsAt1 V c t.val t.isLt).2
      = k1_pay2 (View.ld (iblk1 V c 1 t) (rOff2 (grid1.coords t))) (iblk1 V c 3 t) (iblk1 V c 0 t)
          (outsAt1 V c (t.val - 1) (Nat.lt_of_le_of_lt (Nat.sub_le _ _) t.isLt)).2 := by
  by_cases h1 : t.val % 16 = 15
  · rw [outsAt1_C V c t h0 h1]; dsimp only
    exact sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _
  · rw [outsAt1_B V c t h0 h1]; dsimp only
    exact sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _

/-- At a last column block the output buffer ends at the tail of the accumulator just completed. -/
theorem out_last (c : Dev nD) (t : Fin cfg1.N) (h1 : t.val % 16 = 15) :
    (outsAt1 V c t.val t.isLt).1 = k1_pay3 (iblk1 V c 2 t) (outsAt1 V c t.val t.isLt).2 (iblk1 V c 4 t) := by
  have h0 : ¬ t.val % 16 = 0 := by omega
  rw [outsAt1_C V c t h0 h1]; dsimp only
  rw [sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _]
  exact out1_C_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _

end Pieces1

end Cert.KernelIdeal.Hand

end
-- ==== Proof.LibBlockSums.lean ====
/-
  A sum over a long axis taken block by block, as a running sum.

  Three facts in any commutative additive monoid (so in particular on the extended reals, where nothing beyond
  commutativity and associativity of + is used), and two float literals at exact arithmetic.

  * A sum over `Fin (A * B)` is the sum over the `A` blocks of the `B` block sums (`sum_blocks`).
  * The left-nested running sum `((z + s 0) + s 1) + … + s n` is `z` plus the sum of `s` over `0 … n` (`runSum_eq`).
  * Dividing by the literal 0.5 is multiplying by the literal 2.0, on every extended real (`div_half`).
-/
import Idealize.ShloMosaic.PureOps.Ideal.Laws

noncomputable section

open scoped BigOperators

namespace Cert.LibBlockSums

open Idealize.ShloMosaic

/-- A sum over `A * B` consecutive indices, block by block. -/
theorem sum_blocks {M : Type*} [AddCommMonoid M] (A B : Nat) (f : Fin (A * B) → M) :
    ∑ j, f j = ∑ a : Fin A, ∑ b : Fin B, f ⟨a.val * B + b.val, by
      have ha := a.isLt; have hb := b.isLt
      calc a.val * B + b.val < a.val * B + B := by omega
        _ = (a.val + 1) * B := by ring
        _ ≤ A * B := Nat.mul_le_mul_right B ha⟩ := by
  rw [← Equiv.sum_comp (finProdFinEquiv (m := A) (n := B)) f, Fintype.sum_prod_type]
  refine Finset.sum_congr rfl fun a _ => Finset.sum_congr rfl fun b _ => congrArg f (Fin.ext ?_)
  simp only [finProdFinEquiv_apply_val]
  rw [Nat.mul_comm]; omega

/-- The left-nested running sum of `s` started from `z`. -/
def runSum {M : Type*} [Add M] (z : M) (s : Nat → M) : Nat → M
  | 0 => z + s 0
  | n + 1 => runSum z s n + s (n + 1)

theorem runSum_eq {M : Type*} [AddCommMonoid M] (z : M) (s : Nat → M) (n : Nat) :
    runSum z s n = z + ∑ j ∈ Finset.range (n + 1), s j := by
  induction n with
  | zero => simp [runSum]
  | succ n ih => rw [runSum, ih, Finset.sum_range_succ _ (n + 1), add_assoc]

/-- Started from zero and run over all `A` blocks it is the sum over the blocks. -/
theorem runSum_zero_last {M : Type*} [AddCommMonoid M] (A : Nat) (s : Nat → M) :
    runSum 0 s A = ∑ a : Fin (A + 1), s a.val := by
  rw [runSum_eq, zero_add, Finset.sum_range]

/-- The float literal 2.0. -/
theorem ofBits_two : Ideal.ofBits .f32 0x40000000#32 = ((2 : ℝ) : EReal) := by
  simp [Ideal.ofBits, Ideal.ieee, -EReal.coe_mul]; norm_num

/-- The float literal 0.5. -/
theorem ofBits_half : Ideal.ofBits .f32 0x3F000000#32 = ((1 / 2 : ℝ) : EReal) := by
  simp [Ideal.ofBits, Ideal.ieee, -EReal.coe_mul]; norm_num

/-- On every extended real, the quotient by 0.5 is the product with 2.0. -/
theorem div_half (x : EReal) :
    Ideal.div x (Ideal.ofBits .f32 0x3F000000#32) = x * Ideal.ofBits .f32 0x40000000#32 := by
  rw [ofBits_half, ofBits_two, Ideal.div_coe (by norm_num : (1 / 2 : ℝ) ≠ 0)]
  norm_num

end Cert.LibBlockSums

end
-- ==== Proof.KI.Value1.lean ====
/-
  The aggregation pass, from blocks to the whole array, on the extended reals. Along a row block's sixteen column
  blocks the accumulator runs through the row's own scaled feature plus the partial sums of the adjacency row
  against the scaled features, one block of 1024 columns at a time; at the sixteenth the sixteen block sums are the
  whole row sum, the body scales it by the row's scale, applies the weights, the rectifier and the row
  normalisation, and the pipeline writes the 1024 rows back. The sixteen row blocks tile the output array.
-/
import proofs.«159487_j53403623358621_2_alg».proof.Proof.KI.Pieces1
import proofs.«159487_j53403623358621_2_alg».proof.Proof.KI.PayloadsIdeal
import proofs.«159487_j53403623358621_2_alg».proof.Proof.LibBlockSums

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

section Value1
variable (V : (c : Dev nD) → (b : Ref sig .tc) → Buf (Elt Ideal) ((c : Thread nD τ).loc b))

/-- The arrays as the pass finds them, on the extended reals: adjacency, features, scales, weights. -/
abbrev arrA (c : Dev nD) : S16384x16384.Idx → EReal := V c main_arg1
abbrev arrX (c : Dev nD) : S16384x256.Idx → EReal := V c main_arg0
abbrev arrS (c : Dev nD) : S16384x1.Idx → EReal := V c main_v0
abbrev arrW (c : Dev nD) : S256x256.Idx → EReal := V c main_arg2

/-- The input windows' blocks at a point, at their literal shapes. -/
abbrev blkA (c : Dev nD) (t : Fin cfg1.N) : Vec Ideal S1024x1024 .f32 := iblk1 V c 0 t
abbrev blkX (c : Dev nD) (t : Fin cfg1.N) : Vec Ideal S16384x256 .f32 := iblk1 V c 1 t
abbrev blkSr (c : Dev nD) (t : Fin cfg1.N) : Vec Ideal S1024x1 .f32 := iblk1 V c 2 t
abbrev blkSc (c : Dev nD) (t : Fin cfg1.N) : Vec Ideal S1024x1 .f32 := iblk1 V c 3 t
abbrev blkW (c : Dev nD) (t : Fin cfg1.N) : Vec Ideal S256x256 .f32 := iblk1 V c 4 t

/-- The printed index maps and grid coordinates over the grid: point `t` is row block `t / 16`, column block `t % 16`. -/
theorem idx_facts1 : ∀ t : Fin cfg1.N,
    ((grid1.coords t 0).val = t.val / 16 ∧ (grid1.coords t 1).val = t.val % 16)
    ∧ (win1_0.index t (0 : Fin 2) = t.val / 16 ∧ win1_0.index t (1 : Fin 2) = t.val % 16)
    ∧ (win1_1.index t (0 : Fin 2) = 0 ∧ win1_1.index t (1 : Fin 2) = 0)
    ∧ (win1_2.index t (0 : Fin 2) = t.val / 16 ∧ win1_2.index t (1 : Fin 2) = 0)
    ∧ (win1_3.index t (0 : Fin 2) = t.val % 16 ∧ win1_3.index t (1 : Fin 2) = 0)
    ∧ (win1_4.index t (0 : Fin 2) = 0 ∧ win1_4.index t (1 : Fin 2) = 0)
    ∧ (win1_5.index t (0 : Fin 2) = t.val / 16 ∧ win1_5.index t (1 : Fin 2) = 0) :=
  (by decide +kernel : ∀ t : Fin grid1.N, _)

/-! ## Each window's block at a point, read off its array -/

set_option maxRecDepth 200000 in
/-- The adjacency tile at point `t`: rows `1024·(t/16) …`, columns `1024·(t%16) …`. -/
theorem iblk1_0_apply (c : Dev nD) (t : Fin cfg1.N) (y : S1024x1024.Idx) (k : S16384x16384.Idx)
    (h0 : (k 0).val = 1024 * (t.val / 16) + (y 0).val) (h1 : (k 1).val = 1024 * (t.val % 16) + (y 1).val) :
    blkA V c t y = arrA V c k := by
  obtain ⟨-, ⟨e0, e1⟩, -⟩ := idx_facts1 t
  unfold blkA iblk1
  rw [View.read_apply]
  show V c main_arg1 _ = V c main_arg1 _
  congr 1
  funext a
  apply Fin.ext
  match a with
  | ⟨0, _⟩ => show win1_0.index t (0 : Fin 2) * 1024 + 1 * (y 0).val = (k 0).val; omega
  | ⟨1, _⟩ => show win1_0.index t (1 : Fin 2) * 1024 + 1 * (y 1).val = (k 1).val; omega

set_option maxRecDepth 200000 in
/-- The feature window holds the whole feature array. -/
theorem iblk1_1_apply (c : Dev nD) (t : Fin cfg1.N) (y : S16384x256.Idx) :
    blkX V c t y = arrX V c y := by
  obtain ⟨-, -, ⟨e0, e1⟩, -⟩ := idx_facts1 t
  unfold blkX iblk1
  rw [View.read_apply]
  show V c main_arg0 _ = V c main_arg0 _
  congr 1
  funext a
  apply Fin.ext
  match a with
  | ⟨0, _⟩ => show win1_1.index t (0 : Fin 2) * 16384 + 1 * (y 0).val = (y 0).val; omega
  | ⟨1, _⟩ => show win1_1.index t (1 : Fin 2) * 256 + 1 * (y 1).val = (y 1).val; omega

set_option maxRecDepth 200000 in
/-- The row-blocked window of the scales at point `t`: rows `1024·(t/16) …`. -/
theorem iblk1_2_apply (c : Dev nD) (t : Fin cfg1.N) (y : S1024x1.Idx) (k : S16384x1.Idx)
    (h0 : (k 0).val = 1024 * (t.val / 16) + (y 0).val) :
    blkSr V c t y = arrS V c k := by
  obtain ⟨-, -, -, ⟨e0, e1⟩, -⟩ := idx_facts1 t
  have hy1 : (y 1).val < 1 := (y 1).isLt
  have hk1 : (k 1).val < 1 := (k 1).isLt
  unfold blkSr iblk1
  rw [View.read_apply]
  show V c main_v0 _ = V c main_v0 _
  congr 1
  funext a
  apply Fin.ext
  match a with
  | ⟨0, _⟩ => show win1_2.index t (0 : Fin 2) * 1024 + 1 * (y 0).val = (k 0).val; omega
  | ⟨1, _⟩ => show win1_2.index t (1 : Fin 2) * 1 + 1 * (y 1).val = (k 1).val; omega

set_option maxRecDepth 200000 in
/-- The column-blocked window of the scales at point `t`: rows `1024·(t%16) …`. -/
theorem iblk1_3_apply (c : Dev nD) (t : Fin cfg1.N) (y : S1024x1.Idx) (k : S16384x1.Idx)
    (h0 : (k 0).val = 1024 * (t.val % 16) + (y 0).val) :
    blkSc V c t y = arrS V c k := by
  obtain ⟨-, -, -, -, ⟨e0, e1⟩, -⟩ := idx_facts1 t
  have hy1 : (y 1).val < 1 := (y 1).isLt
  have hk1 : (k 1).val < 1 := (k 1).isLt
  unfold blkSc iblk1
  rw [View.read_apply]
  show V c main_v0 _ = V c main_v0 _
  congr 1
  funext a
  apply Fin.ext
  match a with
  | ⟨0, _⟩ => show win1_3.index t (0 : Fin 2) * 1024 + 1 * (y 0).val = (k 0).val; omega
  | ⟨1, _⟩ => show win1_3.index t (1 : Fin 2) * 1 + 1 * (y 1).val = (k 1).val; omega

set_option maxRecDepth 200000 in
/-- The weight window holds the whole weight matrix. -/
theorem iblk1_4_apply (c : Dev nD) (t : Fin cfg1.N) (y : S256x256.Idx) :
    blkW V c t y = arrW V c y := by
  obtain ⟨-, -, -, -, -, ⟨e0, e1⟩, -⟩ := idx_facts1 t
  unfold blkW iblk1
  rw [View.read_apply]
  show V c main_arg2 _ = V c main_arg2 _
  congr 1
  funext a
  apply Fin.ext
  match a with
  | ⟨0, _⟩ => show win1_4.index t (0 : Fin 2) * 256 + 1 * (y 0).val = (y 0).val; omega
  | ⟨1, _⟩ => show win1_4.index t (1 : Fin 2) * 256 + 1 * (y 1).val = (y 1).val; omega

/-! ## The rows of the resident feature buffer the body slices -/

/-- The accumulation reads the column block's rows `1024·(t%16) …` of the features. -/
theorem rOff2_idx (t : Fin cfg1.N) (kk : Fin 1024) (q : Fin 256) (n : Fin 16384) (hn : n.val = 1024 * (t.val % 16) + kk.val) :
    (rOff2 (grid1.coords t)).idx (ix2 kk q) = (ix2 n q : S16384x256.Idx) := by
  obtain ⟨⟨g0, g1⟩, -⟩ := idx_facts1 t
  funext a
  apply Fin.ext
  match a with
  | ⟨0, _⟩ =>
    show k1_off2 (grid1.coords t) (0 : Fin 2) + 1 * kk.val = n.val
    rw [k1_off2_eq]; show 1024 * (grid1.coords t 1).val + 1 * kk.val = n.val; omega
  | ⟨1, _⟩ =>
    show k1_off2 (grid1.coords t) (1 : Fin 2) + 1 * q.val = q.val
    rw [k1_off2_eq]; show 0 + 1 * q.val = q.val; omega

/-- The reset reads the row block's own rows `1024·(t/16) …` of the features. -/
theorem rOff1_idx (t : Fin cfg1.N) (h : cond1_0 (grid1.coords t)) (p : Fin 1024) (q : Fin 256) (r : Fin 16384)
    (hr : r.val = 1024 * (t.val / 16) + p.val) :
    (rOff1 (grid1.coords t) h).idx (ix2 p q) = (ix2 r q : S16384x256.Idx) := by
  obtain ⟨⟨g0, g1⟩, -⟩ := idx_facts1 t
  funext a
  apply Fin.ext
  match a with
  | ⟨0, _⟩ =>
    show k1_off1 (grid1.coords t) (0 : Fin 2) + 1 * p.val = r.val
    rw [k1_off1_eq]; show 1024 * (grid1.coords t 0).val + 1 * p.val = r.val; omega
  | ⟨1, _⟩ =>
    show k1_off1 (grid1.coords t) (1 : Fin 2) + 1 * q.val = q.val
    rw [k1_off1_eq]; show 0 + 1 * q.val = q.val; omega

/-! ## The accumulator along a row block -/

/-- Column `n`'s term of row `r`'s aggregation at feature `q` (nothing past the last column). -/
def colTerm (c : Dev nD) (s : Fin 16384 → EReal) (r : Fin 16384) (q : Fin 256) (n : ℕ) : EReal :=
  if h : n < 16384 then arrA V c (ix2 r ⟨n, h⟩) * (s ⟨n, h⟩ * arrX V c (ix2 ⟨n, h⟩ q)) else 0

/-- The terms of the 1024 columns of column block `k'`, added. -/
def blockSum (c : Dev nD) (s : Fin 16384 → EReal) (r : Fin 16384) (q : Fin 256) (k' : ℕ) : EReal :=
  ∑ kk : Fin 1024, colTerm V c s r q (1024 * k' + kk.val)

/-- What one accumulation step adds at (p, q): the block sum of the point's column block for the point's row. -/
theorem addend_eq (c : Dev nD) (s : Fin 16384 → EReal) (hs : ∀ j : S16384x1.Idx, V c main_v0 j = s (j 0))
    (t : Fin cfg1.N) (I K : ℕ) (hI : t.val / 16 = I) (hK : t.val % 16 = K)
    (p : Fin 1024) (q : Fin 256) (r : Fin 16384) (hr : r.val = 1024 * I + p.val) :
    (∑ kk : Fin 1024, blkA V c t (ix2 p kk)
        * (blkSc V c t (ix2 kk (0 : Fin 1)) * View.ld (blkX V c t) (rOff2 (grid1.coords t)) (ix2 kk q)))
      = blockSum V c s r q K := by
  have hN : cfg1.N = 256 := N_1
  have ht : t.val < 256 := hN ▸ t.isLt
  unfold blockSum
  refine Finset.sum_congr rfl fun kk _ => ?_
  have hkk : kk.val < 1024 := kk.isLt
  have hn : 1024 * K + kk.val < 16384 := by omega
  unfold colTerm
  rw [dif_pos hn]
  have e0 : blkA V c t (ix2 p kk) = arrA V c (ix2 r ⟨1024 * K + kk.val, hn⟩) :=
    iblk1_0_apply V c t (ix2 p kk) (ix2 r ⟨1024 * K + kk.val, hn⟩) (by rw [hI]; exact hr) (by rw [hK])
  have e3 : blkSc V c t (ix2 kk (0 : Fin 1)) = s ⟨1024 * K + kk.val, hn⟩ :=
    (iblk1_3_apply V c t (ix2 kk (0 : Fin 1)) (ix2 ⟨1024 * K + kk.val, hn⟩ (0 : Fin 1)) (by rw [hK])).trans
      (hs (ix2 ⟨1024 * K + kk.val, hn⟩ (0 : Fin 1)))
  have e1 : View.ld (blkX V c t) (rOff2 (grid1.coords t)) (ix2 kk q)
      = arrX V c (ix2 ⟨1024 * K + kk.val, hn⟩ q) := by
    show blkX V c t ((rOff2 (grid1.coords t)).idx (ix2 kk q)) = _
    rw [rOff2_idx t kk q ⟨1024 * K + kk.val, hn⟩ (by rw [hK])]
    exact iblk1_1_apply V c t _
  rw [e0, e3, e1]

/-- What the reset leaves at (p, q): the row's scale times its feature. -/
theorem reset_eq (c : Dev nD) (s : Fin 16384 → EReal) (hs : ∀ j : S16384x1.Idx, V c main_v0 j = s (j 0))
    (t : Fin cfg1.N) (h : cond1_0 (grid1.coords t)) (I : ℕ) (hI : t.val / 16 = I)
    (p : Fin 1024) (q : Fin 256) (r : Fin 16384) (hr : r.val = 1024 * I + p.val) :
    k1_pay1 (F := Ideal) (View.ld (blkX V c t) (rOff1 (grid1.coords t) h)) (blkSr V c t) (ix2 p q)
      = s r * arrX V c (ix2 r q) := by
  refine (pay1_apply (View.ld (blkX V c t) (rOff1 (grid1.coords t) h)) (blkSr V c t) p q).trans ?_
  have e2 : blkSr V c t (ix2 p (0 : Fin 1)) = s r :=
    (iblk1_2_apply V c t (ix2 p (0 : Fin 1)) (ix2 r (0 : Fin 1)) (by rw [hI]; exact hr)).trans (hs (ix2 r (0 : Fin 1)))
  have e1 : View.ld (blkX V c t) (rOff1 (grid1.coords t) h) (ix2 p q) = arrX V c (ix2 r q) := by
    show blkX V c t ((rOff1 (grid1.coords t) h).idx (ix2 p q)) = _
    rw [rOff1_idx t h p q r (by rw [hI]; exact hr)]
    exact iblk1_1_apply V c t _
  rw [e2, e1]

/-- The body's results at a position do not depend on how the position's bound is proved or spelt. -/
theorem outsAt1_congr (c : Dev nD) (n n' : ℕ) (h : n < cfg1.N) (h' : n' < cfg1.N) (e : n = n') :
    outsAt1 V c n h = outsAt1 V c n' h' := by subst e; rfl

/-- After a first column block the accumulator holds, at (p, q), the row's scaled feature plus the first block sum. -/
theorem acc_first_apply (c : Dev nD) (s : Fin 16384 → EReal) (hs : ∀ j : S16384x1.Idx, V c main_v0 j = s (j 0))
    (t : Fin cfg1.N) (h0 : t.val % 16 = 0) (I : ℕ) (hI : t.val / 16 = I)
    (p : Fin 1024) (q : Fin 256) (r : Fin 16384) (hr : r.val = 1024 * I + p.val) :
    (outsAt1 V c t.val t.isLt).2 (ix2 p q) = s r * arrX V c (ix2 r q) + blockSum V c s r q 0 := by
  refine (congrFun (acc_first V c t h0) (ix2 p q)).trans ?_
  refine (pay2_apply (View.ld (blkX V c t) (rOff2 (grid1.coords t))) (blkSc V c t) (blkA V c t)
    (k1_pay1 (View.ld (blkX V c t) (rOff1 (grid1.coords t) ((hcond1_0 t).mpr h0))) (blkSr V c t)) p q).trans ?_
  exact congr (congrArg HAdd.hAdd (reset_eq V c s hs t ((hcond1_0 t).mpr h0) I hI p q r hr))
    (addend_eq V c s hs t I 0 hI h0 p q r hr)

/-- After any later column block it holds what the point before left plus that block's sum. -/
theorem acc_next_apply (c : Dev nD) (s : Fin 16384 → EReal) (hs : ∀ j : S16384x1.Idx, V c main_v0 j = s (j 0))
    (t : Fin cfg1.N) (hne : ¬ t.val % 16 = 0) (I K : ℕ) (hI : t.val / 16 = I) (hK : t.val % 16 = K)
    (p : Fin 1024) (q : Fin 256) (r : Fin 16384) (hr : r.val = 1024 * I + p.val) :
    (outsAt1 V c t.val t.isLt).2 (ix2 p q)
      = (outsAt1 V c (t.val - 1) (Nat.lt_of_le_of_lt (Nat.sub_le _ _) t.isLt)).2 (ix2 p q) + blockSum V c s r q K := by
  refine (congrFun (acc_next V c t hne) (ix2 p q)).trans ?_
  refine (pay2_apply (View.ld (blkX V c t) (rOff2 (grid1.coords t))) (blkSc V c t) (blkA V c t)
    (outsAt1 V c (t.val - 1) (Nat.lt_of_le_of_lt (Nat.sub_le _ _) t.isLt)).2 p q).trans ?_
  exact congrArg _ (addend_eq V c s hs t I K hI hK p q r hr)

/-- Along row block `I`, after column block `j` the accumulator holds the row's scaled feature plus the block sums
    of the column blocks `0 … j`. -/
theorem acc_inv (c : Dev nD) (s : Fin 16384 → EReal) (hs : ∀ j : S16384x1.Idx, V c main_v0 j = s (j 0)) (I : ℕ) (hI : I < 16) :
    ∀ (j : ℕ) (hj : j < 16) (h : 16 * I + j < cfg1.N) (p : Fin 1024) (q : Fin 256) (r : Fin 16384) (hr : r.val = 1024 * I + p.val),
      (outsAt1 V c (16 * I + j) h).2 (ix2 p q)
        = s r * arrX V c (ix2 r q) + ∑ k' ∈ Finset.range (j + 1), blockSum V c s r q k'
  | 0, hj, h, p, q, r, hr => by
    rw [Finset.sum_range_one]
    exact acc_first_apply V c s hs ⟨16 * I + 0, h⟩ (by show (16 * I + 0) % 16 = 0; omega) I
      (by show (16 * I + 0) / 16 = I; omega) p q r hr
  | j + 1, hj, h, p, q, r, hr => by
    have hN : cfg1.N = 256 := N_1
    rw [Finset.sum_range_succ _ (j + 1)]
    conv_rhs => rw [← add_assoc]
    refine (acc_next_apply V c s hs ⟨16 * I + (j + 1), h⟩ (by show ¬ (16 * I + (j + 1)) % 16 = 0; omega) I (j + 1)
      (by show (16 * I + (j + 1)) / 16 = I; omega) (by show (16 * I + (j + 1)) % 16 = j + 1; omega) p q r hr).trans ?_
    refine congrArg (· + blockSum V c s r q (j + 1)) ?_
    have e := outsAt1_congr V c ((⟨16 * I + (j + 1), h⟩ : Fin cfg1.N).val - 1) (16 * I + j)
      (Nat.lt_of_le_of_lt (Nat.sub_le _ _) h) (by omega) (by show 16 * I + (j + 1) - 1 = 16 * I + j; omega)
    exact (congrArg (fun o => o.2 (ix2 p q)) e).trans (acc_inv c s hs I hI j (by omega) (by omega) p q r hr)

/-- The sixteen block sums are the sum over all 16384 columns. -/
theorem sum_blockSums (c : Dev nD) (s : Fin 16384 → EReal) (r : Fin 16384) (q : Fin 256) :
    ∑ k' ∈ Finset.range 16, blockSum V c s r q k' = ∑ n : Fin 16384, arrA V c (ix2 r n) * (s n * arrX V c (ix2 n q)) := by
  rw [Finset.sum_range]
  refine Eq.trans ?_ (Cert.LibBlockSums.sum_blocks 16 1024
    (fun n : Fin (16 * 1024) => arrA V c (ix2 r n) * (s n * arrX V c (ix2 n q)))).symm
  refine Finset.sum_congr rfl fun a _ => ?_
  unfold blockSum
  refine Finset.sum_congr rfl fun b _ => ?_
  have ha : a.val < 16 := a.isLt
  have hb : b.val < 1024 := b.isLt
  have hn : 1024 * a.val + b.val < 16384 := by omega
  unfold colTerm
  rw [dif_pos hn]
  have hn' : a.val * 1024 + b.val < 16384 := by omega
  have e : (⟨1024 * a.val + b.val, hn⟩ : Fin 16384) = ⟨a.val * 1024 + b.val, hn'⟩ :=
    Fin.ext (by show 1024 * a.val + b.val = a.val * 1024 + b.val; omega)
  rw [e]

/-! ## The output block at a last column block, and the whole array -/

/-- The output array as one function of the arrays the pass finds and of the scales `s`. -/
def outFn (c : Dev nD) (s : Fin 16384 → EReal) : S16384x256.Idx → EReal := fun j =>
  Cert.Spec.tailRow (fun (f g : Fin 256) => arrW V c (ix2 f g)) (Ideal.ofBits .f32 0x2B8CBCCC#32)
    (Cert.Spec.aggK s (fun (i k : Fin 16384) => arrA V c (ix2 i k)) (fun (i : Fin 16384) (f : Fin 256) => arrX V c (ix2 i f)) (j 0)) (j 1)

theorem outFn_apply (c : Dev nD) (s : Fin 16384 → EReal) (j : S16384x256.Idx) (r : Fin 16384) (q : Fin 256)
    (h0 : (j 0).val = r.val) (h1 : (j 1).val = q.val) :
    outFn V c s j = Cert.Spec.tailRow (fun (f g : Fin 256) => arrW V c (ix2 f g)) (Ideal.ofBits .f32 0x2B8CBCCC#32)
      (Cert.Spec.aggK s (fun (i k : Fin 16384) => arrA V c (ix2 i k)) (fun (i : Fin 16384) (f : Fin 256) => arrX V c (ix2 i f)) r) q := by
  have e0 : j 0 = r := Fin.ext h0
  have e1 : j 1 = q := Fin.ext h1
  unfold outFn
  rw [e0, e1]

/-- After a last column block the output buffer holds, at (p, q), the tail of the row's whole aggregation. -/
theorem out_apply (c : Dev nD) (s : Fin 16384 → EReal) (hs : ∀ j : S16384x1.Idx, V c main_v0 j = s (j 0))
    (t : Fin cfg1.N) (h1 : t.val % 16 = 15) (p : Fin 1024) (q : Fin 256) (r : Fin 16384)
    (hr : r.val = 1024 * (t.val / 16) + p.val) :
    (outsAt1 V c t.val t.isLt).1 (ix2 p q)
      = Cert.Spec.tailRow (fun (f g : Fin 256) => arrW V c (ix2 f g)) (Ideal.ofBits .f32 0x2B8CBCCC#32)
          (Cert.Spec.aggK s (fun (i k : Fin 16384) => arrA V c (ix2 i k)) (fun (i : Fin 16384) (f : Fin 256) => arrX V c (ix2 i f)) r) q := by
  have hN : cfg1.N = 256 := N_1
  have ht : t.val < 256 := hN ▸ t.isLt
  refine (congrFun (out_last V c t h1) (ix2 p q)).trans ?_
  refine (pay3_apply (blkSr V c t) (outsAt1 V c t.val t.isLt).2 (blkW V c t) p q).trans ?_
  have eW : (fun (f g : Fin 256) => blkW V c t (ix2 f g)) = fun (f g : Fin 256) => arrW V c (ix2 f g) :=
    funext fun f => funext fun g => iblk1_4_apply V c t (ix2 f g)
  have e2 : blkSr V c t (ix2 p (0 : Fin 1)) = s r :=
    (iblk1_2_apply V c t (ix2 p (0 : Fin 1)) (ix2 r (0 : Fin 1)) hr).trans (hs (ix2 r (0 : Fin 1)))
  have hpos : 16 * (t.val / 16) + 15 < cfg1.N := by omega
  have eO := outsAt1_congr V c t.val (16 * (t.val / 16) + 15) t.isLt hpos (by omega)
  have eR : (fun f : Fin 256 => blkSr V c t (ix2 p (0 : Fin 1)) * (outsAt1 V c t.val t.isLt).2 (ix2 p f))
      = Cert.Spec.aggK s (fun (i k : Fin 16384) => arrA V c (ix2 i k)) (fun (i : Fin 16384) (f : Fin 256) => arrX V c (ix2 i f)) r :=
    funext fun f => by
      rw [e2]
      refine congrArg (s r * ·) ?_
      refine ((congrArg (fun o => o.2 (ix2 p f)) eO).trans
        (acc_inv V c s hs (t.val / 16) (by omega) 15 (by omega) hpos p f r hr)).trans ?_
      rw [sum_blockSums]
  rw [eW, eR]

set_option maxRecDepth 200000 in
/-- What a last column block's point writes back is its block of `outFn`. -/
theorem flushed1_5_eq (c : Dev nD) (s : Fin 16384 → EReal) (hs : ∀ j : S16384x1.Idx, V c main_v0 j = s (j 0))
    (t : Fin cfg1.N) (hf : (cfg1.win 5).flush t = true) :
    (dat1 (F := Ideal) V c).flushed 5 t = ((cfg1.win 5).blk t).view.read (Elt Ideal) (outFn V c s) := by
  have hN : cfg1.N = 256 := N_1
  have ht : t.val < 256 := hN ▸ t.isLt
  have h15 : t.val % 16 = 15 := (flush1_5 t).mp hf
  obtain ⟨-, -, -, -, -, -, ⟨e0, e1⟩⟩ := idx_facts1 t
  show (cfg1.win 5).cut (grid1.coords t) ((dat1 V c).after 5 t) = _
  rw [after1_5]
  funext y
  show (outsAt1 V c t.val t.isLt).1 y = outFn V c s (((cfg1.win 5).blk t).view.emb y)
  obtain ⟨p, q, rfl⟩ : ∃ (p : Fin 1024) (q : Fin 256), y = ix2 p q := ⟨y 0, y 1, eq_ix2 y⟩
  have hp : p.val < 1024 := p.isLt
  have hr : 1024 * (t.val / 16) + p.val < 16384 := by omega
  refine (out_apply V c s hs t h15 p q ⟨1024 * (t.val / 16) + p.val, hr⟩ rfl).trans ?_
  refine (outFn_apply V c s _ ⟨1024 * (t.val / 16) + p.val, hr⟩ q ?_ ?_).symm
  · show win1_5.index t (0 : Fin 2) * 1024 + 1 * p.val = 1024 * (t.val / 16) + p.val; omega
  · show win1_5.index t (1 : Fin 2) * 256 + 1 * q.val = q.val; omega

/-- An index of the array lies in point `t`'s block iff each coordinate lies in the block's range on its axis. -/
theorem mem_blk1_5 (t : Fin cfg1.N) (i : S16384x256.Idx) :
    i ∈ ((cfg1.win 5).blk t).view.set ↔ ∀ a : Fin 2, win1_5.index t a * S1024x256.size a ≤ (i a).val ∧ (i a).val < win1_5.index t a * S1024x256.size a + S1024x256.size a := by
  show i ∈ ((View.whole main_v1).slice (win1_5.rect t)).set ↔ _
  rw [View.set_slice_whole, Rect.mem_set_unit]
  exact Iff.rfl

/-- Row `r` of the output lies in the block of the last point of row block `r / 1024`, which writes it back. -/
theorem cover1_5_arr (i : S16384x256.Idx) : ∃ t : Fin cfg1.N, (cfg1.win 5).flush t = true ∧ i ∈ ((cfg1.win 5).blk t).view.set := by
  have hN : cfg1.N = 256 := N_1
  have hi0 : (i 0).val < 16384 := (i 0).isLt
  have hi1 : (i 1).val < 256 := (i 1).isLt
  have hlt : 16 * ((i 0).val / 1024) + 15 < cfg1.N := by rw [hN]; omega
  refine ⟨⟨16 * ((i 0).val / 1024) + 15, hlt⟩, (flush1_5 _).mpr (by show (16 * ((i 0).val / 1024) + 15) % 16 = 15; omega), ?_⟩
  rw [mem_blk1_5]
  obtain ⟨-, -, -, -, -, -, ⟨e0, e1⟩⟩ := idx_facts1 ⟨16 * ((i 0).val / 1024) + 15, hlt⟩
  have e0' : win1_5.index ⟨16 * ((i 0).val / 1024) + 15, hlt⟩ (0 : Fin 2) = (16 * ((i 0).val / 1024) + 15) / 16 := e0
  intro a
  match a with
  | ⟨0, _⟩ =>
    show win1_5.index _ (0 : Fin 2) * 1024 ≤ (i 0).val ∧ (i 0).val < win1_5.index _ (0 : Fin 2) * 1024 + 1024
    rw [e0']; omega
  | ⟨1, _⟩ =>
    show win1_5.index _ (1 : Fin 2) * 256 ≤ (i 1).val ∧ (i 1).val < win1_5.index _ (1 : Fin 2) * 256 + 256
    rw [e1]; omega

/-- After the aggregation pass, entered with the array of scales at `s`, the output array holds at (row, column) the
    tail of the row's aggregation. -/
theorem value1 (c : Dev nD) (s : Fin 16384 → EReal) (hs : ∀ j : S16384x1.Idx, V c main_v0 j = s (j 0)) (j : S16384x256.Idx) :
    (dat1 (F := Ideal) V c).arrAt 5 cfg1.N j
      = Cert.Spec.tailRow (fun (f g : Fin 256) => V c main_arg2 (ix2 f g)) (Ideal.ofBits .f32 0x2B8CBCCC#32)
          (Cert.Spec.aggK s (fun (i k : Fin 16384) => V c main_arg1 (ix2 i k)) (fun (i : Fin 16384) (f : Fin 256) => V c main_arg0 (ix2 i f)) (j 0)) (j 1) :=
  congrFun ((dat1 (F := Ideal) V c).arrAt_eq_of_cover 5 (outFn V c s) (fun t hf => flushed1_5_eq V c s hs t hf)
    cover1_5_arr) j

end Value1

end Cert.KernelIdeal.Hand

end
-- ==== Proof.KI.KernelValue.lean ====
/-
  The kernel program's result array as one function of the launch memory.

  After the degree pass the array of scales holds, at every node, one over the root of the node's row sum of the
  adjacency matrix plus one; the aggregation pass, entered with that array, leaves in the result array the tail of the
  aggregated rows with the columns scaled first. Substituting the first into the second gives the specification's layer
  of the three argument arrays as launched.
-/
import proofs.«159487_j53403623358621_2_alg».proof.Proof.KI.Segments
import proofs.«159487_j53403623358621_2_alg».proof.Proof.KI.Value0
import proofs.«159487_j53403623358621_2_alg».proof.Proof.KI.Value1

noncomputable section

namespace Cert.KernelIdeal.Hand

open Cert.KernelIdeal Cert.KernelIdeal.Gen
open Idealize.ShloMosaic Idealize.ShloMosaic.TcCoe Idealize.ShloMosaic.ValueIdx Idealize.SL.Sem

/-- Every node's scale, of the adjacency matrix as launched: one over the root of its row sum plus one. -/
def scaleOf (m : (ℓ : Loc nD τ sig) → Buf (Elt Ideal) ℓ) (c : Dev nD) : Fin 16384 → EReal :=
  fun i => Cert.Spec.dinv (Cert.Spec.degK (fun (i k : Fin 16384) => m ((c : Thread nD τ).loc main_arg1) (ix2 i k)) i)

/-- The aggregation pass is entered with the array of scales the degree pass left. -/
theorem scales_entered (m : (ℓ : Loc nD τ sig) → Buf (Elt Ideal) ℓ) (c : Dev nD) (j' : S16384x1.Idx) :
    V1 (F := Ideal) m c main_v0 j' = scaleOf m c (j' 0) := by
  show V1 (F := Ideal) m c main_v0 j'
      = Cert.Spec.dinv (Cert.Spec.degK (fun (i k : Fin 16384) => m ((c : Thread nD τ).loc main_arg1) (ix2 i k)) (j' 0))
  have h := V1_main_v0 (F := Ideal) m c
  rw [h]
  exact value0 (V0 (F := Ideal) m) c j'

/-- The result array after both passes, at every index, is the layer with the columns scaled first of the launch
    contents of the three arguments. -/
theorem kernel_value (m : (ℓ : Loc nD τ sig) → Buf (Elt Ideal) ℓ) (c : Dev nD) (j : S16384x256.Idx) :
    (dat1 (F := Ideal) (V1 (F := Ideal) m) c).arrAt 5 cfg1.N j
      = Cert.Spec.outK (fun (i : Fin 16384) (f : Fin 256) => m ((c : Thread nD τ).loc main_arg0) (ix2 i f))
          (fun (i k : Fin 16384) => m ((c : Thread nD τ).loc main_arg1) (ix2 i k))
          (fun (f g : Fin 256) => m ((c : Thread nD τ).loc main_arg2) (ix2 f g)) (Ideal.ofBits .f32 0x2B8CBCCC#32) (j 0) (j 1) := by
  refine (value1 (V1 (F := Ideal) m) c (scaleOf m c) (scales_entered m c) j).trans ?_
  have e0 := V1_main_arg0 (F := Ideal) m c
  have e1 := V1_main_arg1 (F := Ideal) m c
  have e2 := V1_main_arg2 (F := Ideal) m c
  rw [e0, e1, e2]
  rfl

end Cert.KernelIdeal.Hand

end
-- ==== Proof.RefValue.lean ====
/-
  The reference program's result read at an index.

  The reference builds the identity matrix from two coordinate counters, adds it to the adjacency matrix `A`,
  sums every row of `A + I` to the node's degree, and takes `s i`, one over the square root of the degree. It
  scales `A + I` by `s` on both sides, multiplies the normalised matrix with the node features and the result
  with the weights, rectifies, and divides every row by its Euclidean norm floored at a small constant. Read at
  an index `(p, q)`, every step is the matching step of the specification's `outR`: the lemmas below go through
  the program in its own order (the identity entry, the entry of `A + I`, the degree, its inverse root, the
  normalised entry, the aggregated feature, the rectified feature, the floored norm), each one reading the
  operation at an index and rewriting its operands by the lemmas before it. Sums stay symbolic throughout: two
  sums are compared term by term, never evaluated.
-/
import proofs.«159487_j53403623358621_2_alg».proof.Proof.Gen.ReferenceIdeal.Read
import proofs.«159487_j53403623358621_2_alg».proof.Proof.Spec
import Idealize.ShloMosaic.Lib.ValueIdx

noncomputable section

namespace Cert.ReferenceIdeal.RefValue

open Cert.ReferenceIdeal Cert.ReferenceIdeal.Read Idealize.ShloMosaic Idealize.ShloMosaic.ValueIdx
open scoped BigOperators

/-- The bit pattern of the float one is the extended real one. -/
theorem one_f32 : Ideal.ofBits .f32 0x3F800000#32 = 1 := by
  simp [Ideal.ofBits, Ideal.ieee, -EReal.coe_mul]; norm_num

/-- The converted comparison of the two coordinate counters is the identity matrix: the counters stay below
    `2 ^ 32`, so the words are equal exactly when the coordinates are. -/
theorem eye_apply (i j : Fin 16384) :
    val_main_v5 (F := Ideal) (ix2 i j) = if i = j then 1 else 0 := by
  rw [val_main_v5_apply, val_main_v4_apply, val_main_v3_apply, val_main_v0_apply, val_main_v2_apply,
    val_main_c_apply, val_main_v1_apply]
  show FloatOps.uitofp (F := Ideal) .f32 (IntOp.cmpi .eq (IntOp.addi (BitVec.ofNat 32 i.val) 0#32) (BitVec.ofNat 32 j.val)) = _
  have hij : (IntOp.addi (BitVec.ofNat 32 i.val) 0#32 == BitVec.ofNat 32 j.val) = decide (i = j) := by
    simp only [IntOp.addi, BitVec.add_zero]
    by_cases h : i = j
    · subst h; simp
    · have hne : BitVec.ofNat 32 i.val ≠ BitVec.ofNat 32 j.val := by
        intro e
        have e' := congrArg BitVec.toNat e
        simp only [BitVec.toNat_ofNat] at e'
        have hi := i.isLt
        have hj := j.isLt
        apply h; apply Fin.ext; omega
      simp [hne, h]
  simp only [IntOp.cmpi, hij]
  by_cases h : i = j
  · simp [h, FloatOps.uitofp]
  · simp [h, FloatOps.uitofp]

section Degree
variable (x1 : (⟨S16384x16384, .f32⟩ : BufTy).Contents (Elt Ideal))

/-- An entry of `A + I`. -/
theorem v6_apply (i j : Fin 16384) :
    val_main_v6 (F := Ideal) x1 (ix2 i j) = x1 (ix2 i j) + if i = j then 1 else 0 := by
  rw [val_main_v6_apply, eye_apply]; rfl

theorem idx_v7 (i k : Fin 16384) : idx_main_v7 (ix1 i) k = ix2 i k :=
  funext fun a => Fin.ext (by match a with | ⟨0, _⟩ => rfl | ⟨1, _⟩ => rfl)

/-- The row sum of `A + I` started from zero is the degree. -/
theorem v7_apply (i : Fin 16384) :
    val_main_v7 (F := Ideal) x1 (ix1 i) = Cert.Spec.degR (fun a b => x1 (ix2 a b)) i := by
  rw [val_main_v7_apply, val_main_cst_apply, Ideal.ofBits_def, Ideal.ofBits_zero_f32, zero_add]
  unfold Cert.Spec.degR
  refine Finset.sum_congr rfl fun k _ => ?_
  rw [idx_v7, v6_apply]

/-- One over the square root of the degree. -/
theorem v10_apply (i : Fin 16384) :
    val_main_v10 (F := Ideal) x1 (ix1 i) = Cert.Spec.dinv (Cert.Spec.degR (fun a b => x1 (ix2 a b)) i) := by
  rw [val_main_v10_apply, val_main_v9_apply, val_main_cst_0_apply, val_main_v8_apply, v7_apply,
    Ideal.ofBits_def, one_f32, Ideal.hostDivf_def, Ideal.hostUnary_sqrt_def]
  rfl

theorem idx_v12 (i j : Fin 16384) : idx_main_v11 (idx_main_v12 (ix2 i j)) = ix1 i :=
  funext fun a => Fin.ext (by match a with | ⟨0, _⟩ => rfl)

theorem idx_v15 (i j : Fin 16384) : idx_main_v14 (idx_main_v15 (ix2 i j)) = ix1 j :=
  funext fun a => Fin.ext (by match a with | ⟨0, _⟩ => rfl)

/-- An entry of the matrix normalised on both sides: the row's scale, the entry of `A + I`, the column's scale. -/
theorem v16_apply (i j : Fin 16384) :
    val_main_v16 (F := Ideal) x1 (ix2 i j)
      = (Cert.Spec.dinv (Cert.Spec.degR (fun a b => x1 (ix2 a b)) i) * (x1 (ix2 i j) + if i = j then 1 else 0))
          * Cert.Spec.dinv (Cert.Spec.degR (fun a b => x1 (ix2 a b)) j) := by
  rw [val_main_v16_apply, val_main_v13_apply, val_main_v12_apply, val_main_v11_apply, idx_v12,
    val_main_v15_apply, val_main_v14_apply, idx_v15, v10_apply, v10_apply, v6_apply]
  rfl
end Degree

section Layer
variable (x0 : (⟨S16384x256, .f32⟩ : BufTy).Contents (Elt Ideal)) (x1 : (⟨S16384x16384, .f32⟩ : BufTy).Contents (Elt Ideal))
  (x2 : (⟨S256x256, .f32⟩ : BufTy).Contents (Elt Ideal))

theorem lidx_v17 (i : Fin 16384) (f : Fin 256) (k : Fin 16384) : lidx_main_v17 (ix2 i f) k = ix2 i k :=
  funext fun a => Fin.ext (by match a with | ⟨0, _⟩ => rfl | ⟨1, _⟩ => rfl)

theorem ridx_v17 (i : Fin 16384) (f : Fin 256) (k : Fin 16384) : ridx_main_v17 (ix2 i f) k = ix2 k f :=
  funext fun a => Fin.ext (by match a with | ⟨0, _⟩ => rfl | ⟨1, _⟩ => rfl)

/-- The aggregated features: the normalised matrix times the node features. -/
theorem v17_apply (i : Fin 16384) (f : Fin 256) :
    val_main_v17 (F := Ideal) x0 x1 (ix2 i f)
      = Cert.Spec.aggR (fun i => Cert.Spec.dinv (Cert.Spec.degR (fun a b => x1 (ix2 a b)) i)) (fun a b => x1 (ix2 a b))
          (fun a b => x0 (ix2 a b)) i f := by
  rw [val_main_v17_apply]
  unfold Cert.Spec.aggR
  refine Finset.sum_congr rfl fun k _ => ?_
  rw [lidx_v17, ridx_v17, v16_apply]

theorem lidx_v18 (i : Fin 16384) (g : Fin 256) (k : Fin 256) : lidx_main_v18 (ix2 i g) k = ix2 i k :=
  funext fun a => Fin.ext (by match a with | ⟨0, _⟩ => rfl | ⟨1, _⟩ => rfl)

theorem ridx_v18 (i : Fin 16384) (g : Fin 256) (k : Fin 256) : ridx_main_v18 (ix2 i g) k = ix2 k g :=
  funext fun a => Fin.ext (by match a with | ⟨0, _⟩ => rfl | ⟨1, _⟩ => rfl)

/-- Through the weights and the rectifier. -/
theorem v19_apply (i : Fin 16384) (g : Fin 256) :
    val_main_v19 (F := Ideal) x0 x1 x2 (ix2 i g)
      = Cert.Spec.act (fun a b => x2 (ix2 a b))
          (Cert.Spec.aggR (fun i => Cert.Spec.dinv (Cert.Spec.degR (fun a b => x1 (ix2 a b)) i)) (fun a b => x1 (ix2 a b))
            (fun a b => x0 (ix2 a b)) i) g := by
  rw [val_main_v19_apply, val_main_call0_v0_apply, val_main_call0_cst_apply, val_main_v18_apply,
    Ideal.ofBits_def, Ideal.ofBits_zero_f32, Ideal.maximumf_def]
  unfold Cert.Spec.act
  refine congrArg (fun t : EReal => max t 0) (Finset.sum_congr rfl fun k _ => ?_)
  rw [lidx_v18, ridx_v18, v17_apply]

theorem idx_call1_v1 (i : Fin 16384) (z : Fin 1) (k : Fin 256) :
    idx_main_call1_v1 (idx_main_call1_v2 (ix2 i z)) k = ix2 i k :=
  funext fun a => Fin.ext (by match a with | ⟨0, _⟩ => rfl | ⟨1, _⟩ => rfl)

/-- The floored Euclidean norm of a rectified row. -/
theorem v22_apply (i : Fin 16384) (z : Fin 1) :
    val_main_v22 (F := Ideal) x0 x1 x2 (ix2 i z)
      = max (Ideal.sqrt (∑ g' : Fin 256,
            Cert.Spec.act (fun a b => x2 (ix2 a b))
              (Cert.Spec.aggR (fun i => Cert.Spec.dinv (Cert.Spec.degR (fun a b => x1 (ix2 a b)) i)) (fun a b => x1 (ix2 a b))
                (fun a b => x0 (ix2 a b)) i) g'
            * Cert.Spec.act (fun a b => x2 (ix2 a b))
              (Cert.Spec.aggR (fun i => Cert.Spec.dinv (Cert.Spec.degR (fun a b => x1 (ix2 a b)) i)) (fun a b => x1 (ix2 a b))
                (fun a b => x0 (ix2 a b)) i) g'))
          (Ideal.ofBits .f32 0x2B8CBCCC#32) := by
  rw [val_main_v22_apply, val_main_v20_apply, val_main_call1_v2_apply, val_main_call1_v1_apply,
    val_main_call1_cst_apply, val_main_v21_apply, val_main_cst_1_apply,
    Ideal.ofBits_def, Ideal.ofBits_def, Ideal.ofBits_zero_f32, zero_add, Ideal.maximumf_def, Ideal.hostUnary_sqrt_def]
  refine congrArg (fun t : EReal => max (Ideal.sqrt t) (Ideal.ofBits .f32 0x2B8CBCCC#32)) (Finset.sum_congr rfl fun k _ => ?_)
  rw [idx_call1_v1, val_main_call1_v0_apply, v19_apply]
  rfl

theorem idx_v23 (p : Fin 16384) (q : Fin 256) : idx_main_v23 (ix2 p q) = ix2 p (⟨0, Nat.one_pos⟩ : Fin 1) :=
  funext fun a => Fin.ext (by match a with | ⟨0, _⟩ => rfl | ⟨1, _⟩ => rfl)
end Layer

open Cert.ReferenceIdeal Idealize.ShloMosaic Idealize.ShloMosaic.ValueIdx in
theorem ref_eq (x0 : (⟨S16384x256, .f32⟩ : BufTy).Contents (Elt Ideal)) (x1 : (⟨S16384x16384, .f32⟩ : BufTy).Contents (Elt Ideal))
    (x2 : (⟨S256x256, .f32⟩ : BufTy).Contents (Elt Ideal)) (p : Fin 16384) (q : Fin 256) :
    Cert.ReferenceIdeal.Read.val_main_v24 (F := Ideal) x0 x1 x2 (ix2 p q)
      = Cert.Spec.outR (fun (i : Fin 16384) (f : Fin 256) => x0 (ix2 i f)) (fun (i j : Fin 16384) => x1 (ix2 i j))
          (fun (f g : Fin 256) => x2 (ix2 f g)) (Ideal.ofBits .f32 0x2B8CBCCC#32) p q := by
  rw [val_main_v24_apply, val_main_v23_apply, idx_v23, v19_apply, v22_apply, Ideal.hostDivf_def]
  rfl

end Cert.ReferenceIdeal.RefValue

end
-- ==== Proof.Bridge.lean ====
/-
  The two programs' result functions agree on real inputs.

  With the arguments' entries real, the layer with the columns scaled first (what the kernel's two passes compute)
  and the layer through the normalised matrix (what the reference computes) are the same function: the row scale of a
  node is a nonnegative real or +∞; a nonnegative real distributes over the sums, and a row scaled by +∞ is sent to
  zero by the rectifier and the row normalisation on both sides. The reference's last stage read at an index is the
  second form; so the first form is that stage.
-/
import proofs.«159487_j53403623358621_2_alg».proof.Proof.RefValue
import proofs.«159487_j53403623358621_2_alg».proof.Proof.SpecLaws

noncomputable section

namespace Cert.Proof.Bridge

open Cert.ReferenceIdeal Idealize.ShloMosaic Idealize.ShloMosaic.ValueIdx

/-- The layer with the columns scaled first, of real arguments, is the reference's result at every index. -/
theorem outK_eq_ref (x0 : (⟨S16384x256, .f32⟩ : BufTy).Contents (Elt Ideal)) (x1 : (⟨S16384x16384, .f32⟩ : BufTy).Contents (Elt Ideal))
    (x2 : (⟨S256x256, .f32⟩ : BufTy).Contents (Elt Ideal))
    (h0 : ∀ j, ∃ r : ℝ, x0 j = (r : EReal)) (h1 : ∀ j, ∃ r : ℝ, x1 j = (r : EReal)) (h2 : ∀ j, ∃ r : ℝ, x2 j = (r : EReal))
    (p : Fin 16384) (q : Fin 256) :
    Cert.Spec.outK (fun (i : Fin 16384) (f : Fin 256) => x0 (ix2 i f)) (fun (i j : Fin 16384) => x1 (ix2 i j))
        (fun (f g : Fin 256) => x2 (ix2 f g)) (Ideal.ofBits .f32 0x2B8CBCCC#32) p q
      = Cert.ReferenceIdeal.Read.val_main_v24 (F := Ideal) x0 x1 x2 (ix2 p q) := by
  rw [Cert.ReferenceIdeal.RefValue.ref_eq]
  exact Cert.Spec.outK_eq_outR _ _ _ _ (fun i f => h0 (ix2 i f)) (fun i j => h1 (ix2 i j)) (fun f g => h2 (ix2 f g))
    Cert.Spec.eps_f32 p q

end Cert.Proof.Bridge

end
-- ==== Proof.LibFiniteEntry.lean ====
/-
  Finite entries are real numbers.

  On the extended reals the absolute value of x is max(x, -x); it is +infinity exactly when x is one of the two
  infinities. So an entry whose absolute value is strictly below +infinity is a real number. A program tests "every entry
  of x is finite" as  all(|x| < inf):  the comparison entry by entry against a broadcast +infinity, reduced by `and` over
  every axis from the constant true. If the test's one result is true, every entry passed the comparison, and so is real.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteEntry

open Idealize.ShloMosaic Idealize.ShloMosaic.ValueIdx

/-- The shape with no axes has one index. -/
instance : Subsingleton (⟨0, ![]⟩ : Shape).Idx := ⟨fun a b => funext fun d => d.elim0⟩

/-- An extended real whose absolute value is below +infinity is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- One "all entries are finite" test that came out true, read at an entry: the entry is a real number. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi (cmpf .olt (Host.absf x) (broadcastInDim s ![] hb (constant (F := Ideal) ⟨0, ![]⟩ .f32 0x7F800000#32)))
      init hr hu ix0 = 1#1)
    (i : s.Idx) : ∃ r : ℝ, x i = (r : EReal) := by
  have h1 := Host.reduce_andi_all _ init hr hu ix0 e i
  apply real_of_abs_lt_inf
  have hb' : broadcastInDim s ![] hb (constant (F := Ideal) ⟨0, ![]⟩ .f32 0x7F800000#32) i = Ideal.ofBits .f32 0x7F800000#32 :=
    broadcastInDim_apply _ hb _ i ix0 (fun a => a.elim0)
  rw [← hb']
  exact h1

end Cert.LibFiniteEntry

end
-- ==== Proof.Finite.lean ====
/-
  Every entry of the three argument arrays is a real number.

  The precondition evaluates, on each device, "every entry of x is finite" for each of the three arrays and joins the
  three answers by "and". A conjunction that is true has three true conjuncts, and each conjunct is one
  all(|x| < inf) test; a test that came out true makes each entry of its array real.
-/
import proofs.«159487_j53403623358621_2_alg».proof.Defs
import proofs.«159487_j53403623358621_2_alg».proof.Proof.LibFiniteEntry
import Idealize.ShloMosaic.Lib.Affine
import Idealize.ShloMosaic.Lib.ReduceAll
import Idealize.ShloMosaic.Lib.ValueIdx

noncomputable section

namespace Cert.Proof.Finite

open Idealize.ShloMosaic Idealize.ShloMosaic.ValueIdx Idealize.SL.Sem

theorem real_of_pre [hK : Cert.KernelIdeal.Facts] [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j, ∃ r : ℝ, m ((c.tc : Thread Cert.KernelIdeal.nD Cert.KernelIdeal.τ).loc Cert.KernelIdeal.main_arg0) j = (r : EReal))
    ∧ (∀ j, ∃ r : ℝ, m ((c.tc : Thread Cert.KernelIdeal.nD Cert.KernelIdeal.τ).loc Cert.KernelIdeal.main_arg1) j = (r : EReal))
    ∧ (∀ j, ∃ r : ℝ, m ((c.tc : Thread Cert.KernelIdeal.nD Cert.KernelIdeal.τ).loc Cert.KernelIdeal.main_arg2) j = (r : EReal)) := by
  have e := congrFun (h c) ix0
  dsimp only [Cert.Pre_finite_inputs.fn] at e
  obtain ⟨e01, e2⟩ := IntOp.andi_eq_one.mp e
  obtain ⟨e0, e1⟩ := IntOp.andi_eq_one.mp e01
  exact ⟨fun j => Cert.LibFiniteEntry.real_of_all _ _ _ _ _ e0 j,
    fun j => Cert.LibFiniteEntry.real_of_all _ _ _ _ _ e1 j,
    fun j => Cert.LibFiniteEntry.real_of_all _ _ _ _ _ e2 j⟩

end Cert.Proof.Finite

end
-- ==== Proof.lean ====
/-
  The certificate: the three programs run to the end with their arguments unchanged, the idealized kernel is the
  kernel's own text read at the ideal instance (nothing was rewritten), and on the extended reals the idealized kernel
  and the idealized reference end with the same result array.

  The kernel is a dense graph-convolution layer in two passes over the adjacency matrix: one computes every node's
  inverse root degree, the other aggregates the neighbours' features scaled by it (accumulating over column blocks in
  a scratch buffer), applies the weights, the rectifier and the row normalisation. The reference normalises A + I on
  both sides and multiplies. Both are the specification's layer (Spec.lean); that the two spellings of the layer agree
  on real inputs is SpecLaws.lean; the inputs are real by the precondition (Finite.lean).
-/
import proofs.«159487_j53403623358621_2_alg».proof.Defs
import proofs.«159487_j53403623358621_2_alg».proof.Proof.Gen.Kernel
import proofs.«159487_j53403623358621_2_alg».proof.Proof.Gen.KernelIdeal
import proofs.«159487_j53403623358621_2_alg».proof.Proof.Gen.ReferenceIdeal
import proofs.«159487_j53403623358621_2_alg».proof.Proof.Gen.Pre_finite_inputs
import proofs.«159487_j53403623358621_2_alg».proof.Proof.K.Segments
import proofs.«159487_j53403623358621_2_alg».proof.Proof.KI.KernelValue
import proofs.«159487_j53403623358621_2_alg».proof.Proof.Bridge
import proofs.«159487_j53403623358621_2_alg».proof.Proof.Finite

noncomputable section

namespace Cert.Proof

open Idealize.ShloMosaic Idealize.ShloMosaic.TcCoe Idealize.ShloMosaic.ValueIdx Idealize.SL.Sem

section
variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the specification's layer of the (agreeing, real) argument arrays. -/
theorem algebraic : Cert.algebraic_KernelIdeal_ReferenceIdeal := by
  intro m ρ m' ρ' hpre hagree
  refine ⟨fun c => (Cert.KernelIdeal.Hand.dat1 (F := Ideal) (Cert.KernelIdeal.Hand.V1 m) c).arrAt 5 Cert.KernelIdeal.cfg1.N,
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Proof.Finite.real_of_pre m hpre c
  rw [Cert.ReferenceIdeal.Read.val_main_v24_eq, (hagree c).1, (hagree c).2.1, (hagree c).2.2]
  funext j
  obtain ⟨p, q, rfl⟩ : ∃ (p : Fin 16384) (q : Fin 256), j = ix2 p q := ⟨j 0, j 1, eq_ix2 j⟩
  exact ((Cert.Proof.Bridge.outK_eq_ref _ _ _ h0 h1 h2 p q).symm).trans (Cert.KernelIdeal.Hand.kernel_value m c (ix2 p q)).symm

end

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
